-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S200x10x1024 : Shape := ⟨3, ![200, 10, 1024]⟩
abbrev S3x200 : Shape := ⟨2, ![3, 200]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S200x10x1024 : S_.BroadcastsInDim S200x10x1024 (![] : Fin 0 → Fin S200x10x1024.rank)
  reducesTo_S200x10x1024_S_d0_1_2 : S200x10x1024.ReducesTo [0, 1, 2] S_
  bcast_S_S3x200 : S_.BroadcastsInDim S3x200 (![] : Fin 0 → Fin S3x200.rank)
  reducesTo_S3x200_S_d0_1 : S3x200.ReducesTo [0, 1] S_

variable [Facts]

def fn {F : FTy → Type} [FloatOps F] (main_arg0 : FVec F S64x512x1024 .f32) (main_arg1 : FVec F S200x10x1024 .f32) (main_arg2 : FVec F S3x200 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S200x10x1024 .f32 := Host.absf main_arg1
  let main_cst_0 : FVec F S_ .f32 := constant S_ .f32 0x7F800000#32
  let main_v5 : FVec F S200x10x1024 .f32 := broadcastInDim S200x10x1024 ![] bcast_S_S200x10x1024 main_cst_0
  let main_v6 : IVec S200x10x1024 1 := cmpf .olt main_v4 main_v5
  let main_c_1 : IVec S_ 1 := constantI S_ 1 1#1
  let main_v7 : IVec S_ 1 := (fun x v => Host.reduce IntOp.andi x v reducesTo_S200x10x1024_S_d0_1_2 h_S_) main_v6 main_c_1
  let main_v8 : IVec S_ 1 := andi main_v3 main_v7
  let main_v9 : FVec F S3x200 .f32 := Host.absf main_arg2
  let main_cst_2 : FVec F S_ .f32 := constant S_ .f32 0x7F800000#32
  let main_v10 : FVec F S3x200 .f32 := broadcastInDim S3x200 ![] bcast_S_S3x200 main_cst_2
  let main_v11 : IVec S3x200 1 := cmpf .olt main_v9 main_v10
  let main_c_3 : IVec S_ 1 := constantI S_ 1 1#1
  let main_v12 : IVec S_ 1 := (fun x v => Host.reduce IntOp.andi x v reducesTo_S3x200_S_d0_1 h_S_) main_v11 main_c_3
  let main_v13 : IVec S_ 1 := andi main_v8 main_v12
  main_v13
-- ==== Kernel.lean ====
abbrev S64x512x1024 : Shape := ⟨3, ![64, 512, 1024]⟩
abbrev S200x10x1024 : Shape := ⟨3, ![200, 10, 1024]⟩
abbrev S3x200 : Shape := ⟨2, ![3, 200]⟩
abbrev S64x200x10x512 : Shape := ⟨4, ![64, 200, 10, 512]⟩
abbrev S64x200x10 : Shape := ⟨3, ![64, 200, 10]⟩
abbrev S1x512x1024 : Shape := ⟨3, ![1, 512, 1024]⟩
abbrev S1x200x10x512 : Shape := ⟨4, ![1, 200, 10, 512]⟩
abbrev S1x200x10 : Shape := ⟨3, ![1, 200, 10]⟩
abbrev S512x1024 : Shape := ⟨2, ![512, 1024]⟩
abbrev S512 : Shape := ⟨1, ![512]⟩
abbrev S200x1x1024 : Shape := ⟨3, ![200, 1, 1024]⟩
abbrev S200x1024 : Shape := ⟨2, ![200, 1024]⟩
abbrev S200 : Shape := ⟨1, ![200]⟩
abbrev S200x512 : Shape := ⟨2, ![200, 512]⟩
abbrev S200x1 : Shape := ⟨2, ![200, 1]⟩
abbrev S1x512 : Shape := ⟨2, ![1, 512]⟩
abbrev S1x200x1x512 : Shape := ⟨4, ![1, 200, 1, 512]⟩
abbrev S1x200x1 : Shape := ⟨3, ![1, 200, 1]⟩
abbrev S64x200x512x10 : Shape := ⟨4, ![64, 200, 512, 10]⟩
abbrev S_ : Shape := ⟨0, ![]⟩
abbrev S64x200 : Shape := ⟨2, ![64, 200]⟩
abbrev S200x3 : Shape := ⟨2, ![200, 3]⟩
abbrev S64x3 : Shape := ⟨2, ![64, 3]⟩

abbrev nBuf : Space → Nat
  | .hbm => 13
  | .vmem => 7
  | .smem => 0
  | _ => 0

abbrev bufTy : (tb : Table) → Fin (tcTables nBuf tb) → BufTy
  | .hbm, ⟨0, _⟩ => ⟨S64x512x1024, .f32⟩
  | .hbm, ⟨1, _⟩ => ⟨S200x10x1024, .f32⟩
  | .hbm, ⟨2, _⟩ => ⟨S3x200, .f32⟩
  | .hbm, ⟨3, _⟩ => ⟨S64x200x10x512, .f32⟩
  | .hbm, ⟨4, _⟩ => ⟨S64x200x10, .f32⟩
  | .hbm, ⟨5, _⟩ => ⟨S64x200x512x10, .f32⟩
  | .hbm, ⟨6, _⟩ => ⟨S_, .f32⟩
  | .hbm, ⟨7, _⟩ => ⟨S64x200, .f32⟩
  | .hbm, ⟨8, _⟩ => ⟨S_, .f32⟩
  | .hbm, ⟨9, _⟩ => ⟨S64x200, .f32⟩
  | .hbm, ⟨10, _⟩ => ⟨S64x200, .f32⟩
  | .hbm, ⟨11, _⟩ => ⟨S200x3, .f32⟩
  | .hbm, ⟨12, _⟩ => ⟨S64x3, .f32⟩
  | .local _ .vmem, ⟨0, _⟩ => ⟨S1x512x1024, .f32⟩
  | .local _ .vmem, ⟨1, _⟩ => ⟨S1x512x1024, .f32⟩
  | .local _ .vmem, ⟨2, _⟩ => ⟨S200x10x1024, .f32⟩
  | .local _ .vmem, ⟨3, _⟩ => ⟨S1x200x10x512, .f32⟩
  | .local _ .vmem, ⟨4, _⟩ => ⟨S1x200x10x512, .f32⟩
  | .local _ .vmem, ⟨5, _⟩ => ⟨S1x200x10, .f32⟩
  | .local _ .vmem, ⟨6, _⟩ => ⟨S1x200x10, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x200x10x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x200x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S512x1024_S512 : S512x1024.Reduces [1] S512
  inb_S200x10x1024_S200x1x1024_0_0_0 : ∀ a, (![0, 0, 0] : Fin 3 → Nat) a + S200x1x1024.size a ≤ S200x10x1024.size a
  h_S200x1x1024 : 0 < S200x1x1024.numel
  shapeCasts_S200x1x1024_S200x1024 : S200x1x1024.ShapeCasts S200x1024
  reduces_S200x1024_S200 : S200x1024.Reduces [1] S200
  shapeCasts_S200_S200x1 : S200.ShapeCasts S200x1
  shapeCasts_S512_S1x512 : S512.ShapeCasts S1x512
  broadcasts_S200x1_S200x512 : S200x1.Broadcasts S200x512
  broadcasts_S1x512_S200x512 : S1x512.Broadcasts S200x512
  inb_S1x200x10x512_S1x200x1x512_0_0_0_0 : ∀ a, (![0, 0, 0, 0] : Fin 4 → Nat) a + S1x200x1x512.size a ≤ S1x200x10x512.size a
  h_S1x200x1x512 : 0 < S1x200x1x512.numel
  shapeCasts_S1x200x1x512_S200x512 : S1x200x1x512.ShapeCasts S200x512
  shapeCasts_S200x512_S1x200x1x512 : S200x512.ShapeCasts S1x200x1x512
  reduces_S200x512_S200 : S200x512.Reduces [1] S200
  inb_S1x200x10_S1x200x1_0_0_0 : ∀ a, (![0, 0, 0] : Fin 3 → Nat) a + S1x200x1.size a ≤ S1x200x10.size a
  h_S1x200x1 : 0 < S1x200x1.numel
  shapeCasts_S1x200x1_S200 : S1x200x1.ShapeCasts S200
  shapeCasts_S200_S1x200x1 : S200.ShapeCasts S1x200x1
  inb_S200x10x1024_S200x1x1024_0_1_0 : ∀ a, (![0, 1, 0] : Fin 3 → Nat) a + S200x1x1024.size a ≤ S200x10x1024.size a
  inb_S1x200x10x512_S1x200x1x512_0_0_1_0 : ∀ a, (![0, 0, 1, 0] : Fin 4 → Nat) a + S1x200x1x512.size a ≤ S1x200x10x512.size a
  inb_S1x200x10_S1x200x1_0_0_1 : ∀ a, (![0, 0, 1] : Fin 3 → Nat) a + S1x200x1.size a ≤ S1x200x10.size a
  inb_S200x10x1024_S200x1x1024_0_2_0 : ∀ a, (![0, 2, 0] : Fin 3 → Nat) a + S200x1x1024.size a ≤ S200x10x1024.size a
  inb_S1x200x10x512_S1x200x1x512_0_0_2_0 : ∀ a, (![0, 0, 2, 0] : Fin 4 → Nat) a + S1x200x1x512.size a ≤ S1x200x10x512.size a
  inb_S1x200x10_S1x200x1_0_0_2 : ∀ a, (![0, 0, 2] : Fin 3 → Nat) a + S1x200x1.size a ≤ S1x200x10.size a
  inb_S200x10x1024_S200x1x1024_0_3_0 : ∀ a, (![0, 3, 0] : Fin 3 → Nat) a + S200x1x1024.size a ≤ S200x10x1024.size a
  inb_S1x200x10x512_S1x200x1x512_0_0_3_0 : ∀ a, (![0, 0, 3, 0] : Fin 4 → Nat) a + S1x200x1x512.size a ≤ S1x200x10x512.size a
  inb_S1x200x10_S1x200x1_0_0_3 : ∀ a, (![0, 0, 3] : Fin 3 → Nat) a + S1x200x1.size a ≤ S1x200x10.size a
  inb_S200x10x1024_S200x1x1024_0_4_0 : ∀ a, (![0, 4, 0] : Fin 3 → Nat) a + S200x1x1024.size a ≤ S200x10x1024.size a
  inb_S1x200x10x512_S1x200x1x512_0_0_4_0 : ∀ a, (![0, 0, 4, 0] : Fin 4 → Nat) a + S1x200x1x512.size a ≤ S1x200x10x512.size a
  inb_S1x200x10_S1x200x1_0_0_4 : ∀ a, (![0, 0, 4] : Fin 3 → Nat) a + S1x200x1.size a ≤ S1x200x10.size a
  inb_S200x10x1024_S200x1x1024_0_5_0 : ∀ a, (![0, 5, 0] : Fin 3 → Nat) a + S200x1x1024.size a ≤ S200x10x1024.size a
  inb_S1x200x10x512_S1x200x1x512_0_0_5_0 : ∀ a, (![0, 0, 5, 0] : Fin 4 → Nat) a + S1x200x1x512.size a ≤ S1x200x10x512.size a
  inb_S1x200x10_S1x200x1_0_0_5 : ∀ a, (![0, 0, 5] : Fin 3 → Nat) a + S1x200x1.size a ≤ S1x200x10.size a
  inb_S200x10x1024_S200x1x1024_0_6_0 : ∀ a, (![0, 6, 0] : Fin 3 → Nat) a + S200x1x1024.size a ≤ S200x10x1024.size a
  inb_S1x200x10x512_S1x200x1x512_0_0_6_0 : ∀ a, (![0, 0, 6, 0] : Fin 4 → Nat) a + S1x200x1x512.size a ≤ S1x200x10x512.size a
  inb_S1x200x10_S1x200x1_0_0_6 : ∀ a, (![0, 0, 6] : Fin 3 → Nat) a + S1x200x1.size a ≤ S1x200x10.size a
  inb_S200x10x1024_S200x1x1024_0_7_0 : ∀ a, (![0, 7, 0] : Fin 3 → Nat) a + S200x1x1024.size a ≤ S200x10x1024.size a
  inb_S1x200x10x512_S1x200x1x512_0_0_7_0 : ∀ a, (![0, 0, 7, 0] : Fin 4 → Nat) a + S1x200x1x512.size a ≤ S1x200x10x512.size a
  inb_S1x200x10_S1x200x1_0_0_7 : ∀ a, (![0, 0, 7] : Fin 3 → Nat) a + S1x200x1.size a ≤ S1x200x10.size a
  inb_S200x10x1024_S200x1x1024_0_8_0 : ∀ a, (![0, 8, 0] : Fin 3 → Nat) a + S200x1x1024.size a ≤ S200x10x1024.size a
  inb_S1x200x10x512_S1x200x1x512_0_0_8_0 : ∀ a, (![0, 0, 8, 0] : Fin 4 → Nat) a + S1x200x1x512.size a ≤ S1x200x10x512.size a
  inb_S1x200x10_S1x200x1_0_0_8 : ∀ a, (![0, 0, 8] : Fin 3 → Nat) a + S1x200x1.size a ≤ S1x200x10.size a
  inb_S200x10x1024_S200x1x1024_0_9_0 : ∀ a, (![0, 9, 0] : Fin 3 → Nat) a + S200x1x1024.size a ≤ S200x10x1024.size a
  inb_S1x200x10x512_S1x200x1x512_0_0_9_0 : ∀ a, (![0, 0, 9, 0] : Fin 4 → Nat) a + S1x200x1x512.size a ≤ S1x200x10x512.size a
  inb_S1x200x10_S1x200x1_0_0_9 : ∀ a, (![0, 0, 9] : Fin 3 → Nat) a + S1x200x1.size a ≤ S1x200x10.size a
  transposes_S64x200x10x512_S64x200x512x10_0_1_3_2 : S64x200x10x512.Transposes [0, 1, 3, 2] S64x200x512x10
  reducesTo_S64x200x10_S64x200_d2 : S64x200x10.ReducesTo [2] S64x200
  h_S_ : 0 < S_.numel
  bcast_S_S64x200 : S_.BroadcastsInDim S64x200 (![] : Fin 0 → Fin S64x200.rank)
  transposes_S3x200_S200x3_1_0 : S3x200.Transposes [1, 0] S200x3
  dot_S200x1024_S512x1024_S200x512_1_1_0_0_n_n_wf : DotDims.WF S200x1024 S512x1024 S200x512 [1] [1] [0] [0] [] []
  dot_S64x200_S200x3_S64x3_1_0_0_1_n_n_wf : DotDims.WF S64x200 S200x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x10x1024.size a ≤ S200x10x1024.size a
  hwx0_1 : ∀ i : grid0.Coords, EltTy.bits .f32 = 32 ∨ (Rect.block (s := S200x10x1024) S200x10x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x10x512.size a ≤ S64x200x10x512.size a
  hwx0_2 : ∀ i : grid0.Coords, EltTy.bits .f32 = 32 ∨ (Rect.block (s := S64x200x10x512) S1x200x10x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x10.size a ≤ S64x200x10.size a
  hwx0_3 : ∀ i : grid0.Coords, EltTy.bits .f32 = 32 ∨ (Rect.block (s := S64x200x10) S1x200x10.size (cc0_transform_3 i) (hinb0_3 i)).WholeWords (EltTy.packing .f32)

variable [Facts₀]

def dot_S200x1024_S512x1024_S200x512_1_1_0_0_n_n : DotDims S200x1024 S512x1024 S200x512 where
  lhsContracting := [1]
  rhsContracting := [1]
  lhsNonContracting := [0]
  rhsNonContracting := [0]
  lhsBatch := []
  rhsBatch := []
  wf := dot_S200x1024_S512x1024_S200x512_1_1_0_0_n_n_wf
def dot_S64x200_S200x3_S64x3_1_0_0_1_n_n : DotDims S64x200 S200x3 S64x3 where
  lhsContracting := [1]
  rhsContracting := [0]
  lhsNonContracting := [0]
  rhsNonContracting := [1]
  lhsBatch := []
  rhsBatch := []
  wf := dot_S64x200_S200x3_S64x3_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x200x10x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x200x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S200x10x1024 : Shape := ⟨3, ![200, 10, 1024]⟩
abbrev S3x200 : Shape := ⟨2, ![3, 200]⟩
abbrev S_ : Shape := ⟨0, ![]⟩
abbrev S64x512 : Shape := ⟨2, ![64, 512]⟩
abbrev S200x10 : Shape := ⟨2, ![200, 10]⟩
abbrev S200x10x64x512 : Shape := ⟨4, ![200, 10, 64, 512]⟩
abbrev S64x200x512x10 : Shape := ⟨4, ![64, 200, 512, 10]⟩
abbrev S64x1x512x1 : Shape := ⟨4, ![64, 1, 512, 1]⟩
abbrev S1x200x1x10 : Shape := ⟨4, ![1, 200, 1, 10]⟩
abbrev S64x200x10 : Shape := ⟨3, ![64, 200, 10]⟩
abbrev S64x200 : Shape := ⟨2, ![64, 200]⟩
abbrev S200x3 : Shape := ⟨2, ![200, 3]⟩
abbrev S64x3 : Shape := ⟨2, ![64, 3]⟩

abbrev nBuf : Space → Nat
  | .hbm => 33
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S200x10x1024, .f32⟩
  | .hbm, ⟨2, _⟩ => ⟨S3x200, .f32⟩
  | .hbm, ⟨3, _⟩ => ⟨S64x512x1024, .f32⟩
  | .hbm, ⟨4, _⟩ => ⟨S_, .f32⟩
  | .hbm, ⟨5, _⟩ => ⟨S64x512, .f32⟩
  | .hbm, ⟨6, _⟩ => ⟨S200x10x1024, .f32⟩
  | .hbm, ⟨7, _⟩ => ⟨S_, .f32⟩
  | .hbm, ⟨8, _⟩ => ⟨S200x10, .f32⟩
  | .hbm, ⟨9, _⟩ => ⟨S200x10x64x512, .f32⟩
  | .hbm, ⟨10, _⟩ => ⟨S64x200x512x10, .f32⟩
  | .hbm, ⟨11, _⟩ => ⟨S64x1x512x1, .f32⟩
  | .hbm, ⟨12, _⟩ => ⟨S1x200x1x10, .f32⟩
  | .hbm, ⟨13, _⟩ => ⟨S64x200x512x10, .f32⟩
  | .hbm, ⟨14, _⟩ => ⟨S64x200x512x10, .f32⟩
  | .hbm, ⟨15, _⟩ => ⟨S64x200x512x10, .f32⟩
  | .hbm, ⟨16, _⟩ => ⟨S_, .f32⟩
  | .hbm, ⟨17, _⟩ => ⟨S64x200x512x10, .f32⟩
  | .hbm, ⟨18, _⟩ => ⟨S64x200x512x10, .f32⟩
  | .hbm, ⟨19, _⟩ => ⟨S64x200x512x10, .f32⟩
  | .hbm, ⟨20, _⟩ => ⟨S_, .f32⟩
  | .hbm, ⟨21, _⟩ => ⟨S64x200x512x10, .f32⟩
  | .hbm, ⟨22, _⟩ => ⟨S64x200x512x10, .f32⟩
  | .hbm, ⟨23, _⟩ => ⟨S64x200x512x10, .f32⟩
  | .hbm, ⟨24, _⟩ => ⟨S_, .f32⟩
  | .hbm, ⟨25, _⟩ => ⟨S64x200x10, .f32⟩
  | .hbm, ⟨26, _⟩ => ⟨S_, .f32⟩
  | .hbm, ⟨27, _⟩ => ⟨S64x200, .f32⟩
  | .hbm, ⟨28, _⟩ => ⟨S_, .f32⟩
  | .hbm, ⟨29, _⟩ => ⟨S64x200, .f32⟩
  | .hbm, ⟨30, _⟩ => ⟨S64x200, .f32⟩
  | .hbm, ⟨31, _⟩ => ⟨S200x3, .f32⟩
  | .hbm, ⟨32, _⟩ => ⟨S64x3, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S64x512x1024_S64x512_d2 : S64x512x1024.ReducesTo [2] S64x512
  h_S_ : 0 < S_.numel
  reducesTo_S200x10x1024_S200x10_d2 : S200x10x1024.ReducesTo [2] S200x10
  transposes_S200x10x64x512_S64x200x512x10_2_0_3_1 : S200x10x64x512.Transposes [2, 0, 3, 1] S64x200x512x10
  bcast_S64x512_S64x1x512x1_0_2 : S64x512.BroadcastsInDim S64x1x512x1 (![0, 2] : Fin 2 → Fin S64x1x512x1.rank)
  bcast_S200x10_S1x200x1x10_1_3 : S200x10.BroadcastsInDim S1x200x1x10 (![1, 3] : Fin 2 → Fin S1x200x1x10.rank)
  bcast_S64x1x512x1_S64x200x512x10_0_1_2_3 : S64x1x512x1.BroadcastsInDim S64x200x512x10 (![0, 1, 2, 3] : Fin 4 → Fin S64x200x512x10.rank)
  bcast_S1x200x1x10_S64x200x512x10_0_1_2_3 : S1x200x1x10.BroadcastsInDim S64x200x512x10 (![0, 1, 2, 3] : Fin 4 → Fin S64x200x512x10.rank)
  bcast_S_S64x200x512x10 : S_.BroadcastsInDim S64x200x512x10 (![] : Fin 0 → Fin S64x200x512x10.rank)
  reducesTo_S64x200x512x10_S64x200x10_d2 : S64x200x512x10.ReducesTo [2] S64x200x10
  reducesTo_S64x200x10_S64x200_d2 : S64x200x10.ReducesTo [2] S64x200
  bcast_S_S64x200 : S_.BroadcastsInDim S64x200 (![] : Fin 0 → Fin S64x200.rank)
  transposes_S3x200_S200x3_1_0 : S3x200.Transposes [1, 0] S200x3
  dot_S200x10x1024_S64x512x1024_S200x10x64x512_2_2_01_01_n_n_wf : DotDims.WF S200x10x1024 S64x512x1024 S200x10x64x512 [2] [2] [0, 1] [0, 1] [] []
  dot_S64x200_S200x3_S64x3_1_0_0_1_n_n_wf : DotDims.WF S64x200 S200x3 S64x3 [1] [0] [0] [1] [] []

variable [Facts₀]

def dot_S200x10x1024_S64x512x1024_S200x10x64x512_2_2_01_01_n_n : DotDims S200x10x1024 S64x512x1024 S200x10x64x512 where
  lhsContracting := [2]
  rhsContracting := [2]
  lhsNonContracting := [0, 1]
  rhsNonContracting := [0, 1]
  lhsBatch := []
  rhsBatch := []
  wf := dot_S200x10x1024_S64x512x1024_S200x10x64x512_2_2_01_01_n_n_wf
def dot_S64x200_S200x3_S64x3_1_0_0_1_n_n : DotDims S64x200 S200x3 S64x3 where
  lhsContracting := [1]
  rhsContracting := [0]
  lhsNonContracting := [0]
  rhsNonContracting := [1]
  lhsBatch := []
  rhsBatch := []
  wf := dot_S64x200_S200x3_S64x3_1_0_0_1_n_n_wf

class Facts : Prop extends Facts₀ where

variable [Facts]
-- ==== Proof.DistanceTable.lean ====
/-
  Distances between sequence positions and prototype parts.

  An embedding array `emb[b, s, e]` (64 batches, 512 positions, 1024 features) and a prototype array
  `proto[p, k, e]` (200 prototypes of 10 parts, 1024 features) give, for every batch `b`, prototype `p`,
  position `s` and part `k`, the Euclidean distance between row `emb[b, s, ·]` and row `proto[p, k, ·]`,
  computed from the expansion

      ‖x − y‖² = ‖x‖² + ‖y‖² − 2 ⟨y, x⟩

  clamped below at zero before the square root. Over the extended reals every sum here is the exact finite
  sum, the clamp is `max`, and the square root is `Ideal.sqrt`. The smallest distance over the positions of a
  batch, for each prototype part, is the fold of `min` from +∞ over the 512 positions.

  The three float words that occur (2, 0 and +∞) are kept as their bit patterns: both programs write the
  same words, so none is ever evaluated.
-/
import Idealize.ShloMosaic.PureOps.Ideal
import Idealize.ShloMosaic.Lib.ValueIdx

noncomputable section

namespace Cert.DistanceTable

open Idealize.ShloMosaic Idealize.ShloMosaic.ValueIdx

/-- Embeddings: batch × position × feature. -/
abbrev SEmb : Shape := ⟨3, ![64, 512, 1024]⟩
/-- Prototypes: prototype × part × feature. -/
abbrev SProto : Shape := ⟨3, ![200, 10, 1024]⟩
/-- Distances, laid out batch × prototype × position × part. -/
abbrev SDist : Shape := ⟨4, ![64, 200, 512, 10]⟩
/-- The same distances with the last two axes exchanged: batch × prototype × part × position. -/
abbrev SDistT : Shape := ⟨4, ![64, 200, 10, 512]⟩
/-- Smallest distances: batch × prototype × part. -/
abbrev SMin : Shape := ⟨3, ![64, 200, 10]⟩

variable (emb : SEmb.Idx → EReal) (proto : SProto.Idx → EReal)

/-- ‖emb[b, s, ·]‖²: the sum of the squares of one embedding row. -/
def embSq (b : Fin 64) (s : Fin 512) : EReal := ∑ e : Fin 1024, emb (ix3 b s e) * emb (ix3 b s e)

/-- ‖proto[p, k, ·]‖²: the sum of the squares of one prototype part. -/
def protoSq (p : Fin 200) (k : Fin 10) : EReal := ∑ e : Fin 1024, proto (ix3 p k e) * proto (ix3 p k e)

/-- ⟨proto[p, k, ·], emb[b, s, ·]⟩: the inner product of a prototype part with an embedding row. -/
def cross (b : Fin 64) (p : Fin 200) (s : Fin 512) (k : Fin 10) : EReal :=
  ∑ e : Fin 1024, proto (ix3 p k e) * emb (ix3 b s e)

/-- The distance between embedding row (b, s) and prototype part (p, k): the square root of
    ‖x‖² + ‖y‖² − 2⟨y, x⟩ clamped below at zero. -/
def dist (b : Fin 64) (p : Fin 200) (s : Fin 512) (k : Fin 10) : EReal :=
  Ideal.sqrt (max (embSq emb b s + protoSq proto p k - Ideal.ofBits .f32 0x40000000#32 * cross emb proto b p s k)
    (Ideal.ofBits .f32 0x00000000#32))

/-- The smallest of those distances over the 512 positions of batch `b`, from +∞. -/
def minDist (b : Fin 64) (p : Fin 200) (k : Fin 10) : EReal :=
  (Finset.univ : Finset (Fin 512)).fold min (Ideal.ofBits .f32 0x7F800000#32) (fun s => dist emb proto b p s k)

/-- The distance table, batch × prototype × position × part. -/
def distArr : SDist.Idx → EReal := fun i =>
  dist emb proto ⟨(i 0).val, (i 0).isLt⟩ ⟨(i 1).val, (i 1).isLt⟩ ⟨(i 2).val, (i 2).isLt⟩ ⟨(i 3).val, (i 3).isLt⟩

/-- The same table, batch × prototype × part × position. -/
def distArrT : SDistT.Idx → EReal := fun i =>
  dist emb proto ⟨(i 0).val, (i 0).isLt⟩ ⟨(i 1).val, (i 1).isLt⟩ ⟨(i 3).val, (i 3).isLt⟩ ⟨(i 2).val, (i 2).isLt⟩

/-- The table of smallest distances, batch × prototype × part. -/
def minArr : SMin.Idx → EReal := fun i =>
  minDist emb proto ⟨(i 0).val, (i 0).isLt⟩ ⟨(i 1).val, (i 1).isLt⟩ ⟨(i 2).val, (i 2).isLt⟩

theorem distArr_ix4 (b : Fin 64) (p : Fin 200) (s : Fin 512) (k : Fin 10) :
    distArr emb proto (ix4 b p s k) = dist emb proto b p s k := rfl

theorem distArrT_ix4 (b : Fin 64) (p : Fin 200) (k : Fin 10) (s : Fin 512) :
    distArrT emb proto (ix4 b p k s) = dist emb proto b p s k := rfl

theorem minArr_ix3 (b : Fin 64) (p : Fin 200) (k : Fin 10) :
    minArr emb proto (ix3 b p k) = minDist emb proto b p k := rfl

end Cert.DistanceTable

end
-- ==== Proof.LibMinReduce.lean ====
/-
  A minimum along one axis, read over the extended reals.

  Over the extended reals the float minimum is `min`, which commutes and associates; so a minimum taken along ONE axis of an
  array, from an accumulator's value, is at each index of the result the fold of `min` from that value over the
  coordinates of the reduced axis, in any order: the result index with the coordinate inserted on that axis names the
  entry. This holds of a vector reduction in a kernel and of a one-operand reduction with a minimum body in a host program.
-/
import Idealize.ShloMosaic.PureOps.Ideal
import Idealize.ShloMosaic.PureOps.Reduce
import Idealize.ShloMosaic.PureOps.Ideal.Laws

namespace Idealize.ShloMosaic.MinReduce

open Idealize.ShloMosaic

variable {φ : FTy}

/-- A float minimum along ONE axis of a vector, read over the extended reals: at each index of the result, the fold of
    `min` from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A host program's one-operand reduction with a minimum body along ONE axis, read over the extended reals: at each index
    of the result, the fold of `min` from the initial value's element over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Idealize.ShloMosaic.MinReduce
-- ==== Proof.ReferenceTable.lean ====
/-
  The host program's distance and minimum stages are the distance table.

  The host program squares the embedding and prototype arrays and sums each over the feature axis, takes the
  inner products of prototype parts with embedding rows by one contraction over the feature axis, exchanges the
  axes of that product into batch × prototype × position × part, forms ‖x‖² + ‖y‖² − 2⟨y, x⟩ with the two row
  sums spread over the missing axes, clamps at zero and takes the square root; then it takes the minimum over
  the position axis from +∞. Read over the extended reals, each stage at an index is the operation on the
  operands at the indices the layout operations name, so the distances stage is the table of distances and
  the minimum stage the table of smallest distances, entry by entry. The two sums start from the word 0,
  which is the extended real 0 and drops out; the words 2, 0 (in the clamp) and +∞ are left as written.
-/
import proofs.«119728_j33139967656189_2_alg».proof.Proof.Gen.ReferenceIdeal.Read
import proofs.«119728_j33139967656189_2_alg».proof.Proof.DistanceTable
import proofs.«119728_j33139967656189_2_alg».proof.Proof.LibMinReduce

noncomputable section

namespace Cert.ReferenceTable

open Idealize.ShloMosaic Idealize.ShloMosaic.ValueIdx
open Cert.ReferenceIdeal Cert.ReferenceIdeal.Gen Cert.ReferenceIdeal.Read Cert.DistanceTable

/-- The sum of the squares of embedding row (b, s), as the host program computes it: the initial 0 drops out. -/
theorem embSq_eq (x0 : (⟨S64x512x1024, .f32⟩ : BufTy).Contents (Elt Ideal)) (b : Fin 64) (s : Fin 512) :
    val_main_v1 (F := Ideal) x0 (ix2 b s) = embSq x0 b s := by
  rw [val_main_v1_apply, val_main_cst_apply, Ideal.ofBits_def, Ideal.ofBits_zero_f32, zero_add]
  unfold embSq
  refine Finset.sum_congr rfl fun e _ => ?_
  rw [val_main_v0_apply, Ideal.mulf_def]
  have hi : idx_main_v1 (ix2 b s) e = ix3 b s e :=
    funext fun a => Fin.ext (by match a with | ⟨0, _⟩ => rfl | ⟨1, _⟩ => rfl | ⟨2, _⟩ => rfl)
  rw [hi]

/-- The sum of the squares of prototype part (p, k), as the host program computes it. -/
theorem protoSq_eq (x1 : (⟨S200x10x1024, .f32⟩ : BufTy).Contents (Elt Ideal)) (p : Fin 200) (k : Fin 10) :
    val_main_v3 (F := Ideal) x1 (ix2 p k) = protoSq x1 p k := by
  rw [val_main_v3_apply, val_main_cst_0_apply, Ideal.ofBits_def, Ideal.ofBits_zero_f32, zero_add]
  unfold protoSq
  refine Finset.sum_congr rfl fun e _ => ?_
  rw [val_main_v2_apply, Ideal.mulf_def]
  have hi : idx_main_v3 (ix2 p k) e = ix3 p k e :=
    funext fun a => Fin.ext (by match a with | ⟨0, _⟩ => rfl | ⟨1, _⟩ => rfl | ⟨2, _⟩ => rfl)
  rw [hi]

/-- The contraction at (p, k, b, s) is the inner product of prototype part (p, k) with embedding row (b, s). -/
theorem cross_eq (x0 : (⟨S64x512x1024, .f32⟩ : BufTy).Contents (Elt Ideal))
    (x1 : (⟨S200x10x1024, .f32⟩ : BufTy).Contents (Elt Ideal)) (b : Fin 64) (p : Fin 200) (s : Fin 512) (k : Fin 10) :
    val_main_v4 (F := Ideal) x0 x1 (ix4 p k b s) = cross x0 x1 b p s k := by
  rw [val_main_v4_apply]
  unfold cross
  refine Finset.sum_congr rfl fun e _ => ?_
  have hl : lidx_main_v4 (ix4 p k b s) e = ix3 p k e :=
    funext fun a => Fin.ext (by match a with | ⟨0, _⟩ => rfl | ⟨1, _⟩ => rfl | ⟨2, _⟩ => rfl)
  have hr : ridx_main_v4 (ix4 p k b s) e = ix3 b s e :=
    funext fun a => Fin.ext (by match a with | ⟨0, _⟩ => rfl | ⟨1, _⟩ => rfl | ⟨2, _⟩ => rfl)
  rw [hl, hr]

/-- The distances stage is the distance table. -/
theorem dist_eq (x0 : (⟨Cert.ReferenceIdeal.S64x512x1024, .f32⟩ : BufTy).Contents (Elt Ideal))
    (x1 : (⟨Cert.ReferenceIdeal.S200x10x1024, .f32⟩ : BufTy).Contents (Elt Ideal)) :
    Cert.ReferenceIdeal.Read.val_main_v16 (F := Ideal) x0 x1 = Cert.DistanceTable.distArr x0 x1 := by
  funext i
  obtain ⟨b, p, s, k, rfl⟩ : ∃ (b : Fin 64) (p : Fin 200) (s : Fin 512) (k : Fin 10), i = ix4 b p s k :=
    ⟨i 0, i 1, i 2, i 3, eq_ix4 i⟩
  rw [distArr_ix4]
  rw [val_main_v16_apply, val_main_v15_apply, val_main_v13_apply, val_main_v10_apply, val_main_v12_apply,
    val_main_v14_apply, val_main_cst_2_apply, val_main_v11_apply, val_main_cst_1_apply,
    val_main_v8_apply, val_main_v6_apply, val_main_v9_apply, val_main_v7_apply, val_main_v5_apply]
  have h8 : idx_main_v6 (idx_main_v8 (ix4 b p s k)) = ix2 b s :=
    funext fun a => Fin.ext (by match a with | ⟨0, _⟩ => rfl | ⟨1, _⟩ => rfl)
  have h9 : idx_main_v7 (idx_main_v9 (ix4 b p s k)) = ix2 p k :=
    funext fun a => Fin.ext (by match a with | ⟨0, _⟩ => rfl | ⟨1, _⟩ => rfl)
  have h5 : idx_main_v5 (ix4 b p s k) = ix4 p k b s :=
    funext fun a => Fin.ext (by match a with | ⟨0, _⟩ => rfl | ⟨1, _⟩ => rfl | ⟨2, _⟩ => rfl | ⟨3, _⟩ => rfl)
  rw [h8, h9, h5, embSq_eq, protoSq_eq, cross_eq]
  rfl

/-- The result index (b, p, k) with position s put back on the reduced axis is (b, p, s, k). -/
theorem lift_ix3 (h : S64x200x512x10.Reduces [2] S64x200x10) (b : Fin 64) (p : Fin 200) (k : Fin 10) (s : Fin 512) :
    h.lift (ix3 b p k) s = ix4 b p s k :=
  funext fun c => Fin.ext (by match c with | ⟨0, _⟩ => rfl | ⟨1, _⟩ => rfl | ⟨2, _⟩ => rfl | ⟨3, _⟩ => rfl)

/-- The minimum stage is the table of smallest distances. -/
theorem min_eq (x0 : (⟨Cert.ReferenceIdeal.S64x512x1024, .f32⟩ : BufTy).Contents (Elt Ideal))
    (x1 : (⟨Cert.ReferenceIdeal.S200x10x1024, .f32⟩ : BufTy).Contents (Elt Ideal)) :
    Cert.ReferenceIdeal.Read.val_main_v17 (F := Ideal) x0 x1 = Cert.DistanceTable.minArr x0 x1 := by
  funext i
  obtain ⟨b, p, k, rfl⟩ : ∃ (b : Fin 64) (p : Fin 200) (k : Fin 10), i = ix3 b p k := ⟨i 0, i 1, i 2, eq_ix3 i⟩
  rw [minArr_ix3]
  have h : S64x200x512x10.Reduces [2] S64x200x10 := by decide
  unfold val_main_v17 minDist
  rw [MinReduce.hostReduce_minimumf_single _ _ reducesTo_S64x200x512x10_S64x200x10_d2 h h_S_, val_main_cst_3_apply,
    Ideal.ofBits_def]
  refine congrArg (fun f : Fin 512 → EReal => Finset.fold min (Ideal.ofBits .f32 0x7F800000#32) f Finset.univ) ?_
  funext (s : Fin 512)
  refine (congrArg (val_main_v16 (F := Ideal) x0 x1) (lift_ix3 h b p k s)).trans ?_
  rw [dist_eq, distArr_ix4]

end Cert.ReferenceTable

end
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PartDistances.lean ====
/-
  One prototype part against one batch, inside the kernel body.

  The body holds a batch's embedding rows `x[s, ·]` (512 rows of 1024 features, loaded as a [1, 512, 1024] block)
  and, for one part `k`, the 200 prototype rows `y[p, ·]` (loaded as a [200, 1, 1024] slice). From them it forms, for
  every prototype `p` and position `s`,

      sqrt (max ((‖y[p]‖² + ‖x[s]‖²) − 2 · ⟨y[p], x[s]⟩) 0)

  with ‖·‖² a row's sum of squares and ⟨·,·⟩ a matrix product contracted over the features; the copies of the rows
  in the narrower float format that feed the matrix unit are the rows themselves over the extended reals. This
  module reads that [200, 512] table at an index, and its row minima.
-/
import proofs.«119728_j33139967656189_2_alg».proof.Proof.Gen.KernelIdeal.Skeleton
import proofs.«119728_j33139967656189_2_alg».proof.Proof.LibKeepdimsSum
import proofs.«119728_j33139967656189_2_alg».proof.Proof.LibColumnBroadcast
import proofs.«119728_j33139967656189_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PartDistances

open Cert.KernelIdeal Cert.KernelIdeal.Gen
open Idealize.ShloMosaic Idealize.ShloMosaic.ValueIdx

/-! ## The stages, each read at an index over the extended reals -/

/-- Row `p` of a part's [200, 1, 1024] slice, once the unit axis is dropped. -/
theorem sliceRow_apply (pk : Vec Ideal S200x1x1024 .f32) (p : Fin 200) (e : Fin 1024) :
    shapeCast S200x1024 pk shapeCasts_S200x1x1024_S200x1024 (ix2 p e) = pk (ix3 p (0 : Fin 1) e) :=
  shapeCast_apply pk _ _ _ (by
    rw [Shape.rowMajor_val_three, Shape.rowMajor_val_two]
    show (p.val * 1 + 0) * 1024 + e.val = p.val * 1024 + e.val
    omega)

/-- Row `s` of the batch's [1, 512, 1024] block, once the unit axis is dropped. -/
theorem blockRow_apply (x0 : Vec Ideal S1x512x1024 .f32) (s : Fin 512) (e : Fin 1024) :
    shapeCast S512x1024 x0 shapeCasts_S1x512x1024_S512x1024 (ix2 s e) = x0 (ix3 (0 : Fin 1) s e) :=
  shapeCast_1ab_ab_apply x0 _ s e

/-- The prototype rows' sums of squares, stood up as a column and repeated along the positions. -/
theorem protoNorms_apply (y : FVec Ideal S200x1024 .f32) (p : Fin 200) (s : Fin 512) :
    broadcastTo S200x512 (shapeCast S200x1 (multiReduction .add [1] S200 (mulf y y) 0x00000000#32 reduces_S200x1024_S200 (.inl rfl) rfl)
        shapeCasts_S200_S200x1) broadcasts_S200x1_S200x512 (ix2 p s)
      = ∑ e : Fin 1024, y (ix2 p e) * y (ix2 p e) :=
  (broadcastTo_a1_ab_apply _ _ p s).trans
    (Cert.KeepdimsSum.rowSum_column_apply (mulf y y) reduces_S200x1024_S200 (.inl rfl) rfl shapeCasts_S200_S200x1 p 0)

/-- The embedding rows' sums of squares, laid as a row and repeated along the prototypes. -/
theorem embNorms_apply (x2 : FVec Ideal S512 .f32) (p : Fin 200) (s : Fin 512) :
    broadcastTo S200x512 (shapeCast S1x512 x2 shapeCasts_S512_S1x512) broadcasts_S1x512_S200x512 (ix2 p s) = x2 (ix1 s) :=
  (broadcastTo_1b_ab_apply _ _ p s).trans (shapeCast_a_1a_apply x2 _ 0 s)

/-- A row's sum of squares. -/
theorem rowNorm_apply (x : FVec Ideal S512x1024 .f32) (s : Fin 512) :
    multiReduction .add [1] S512 (mulf x x) 0x00000000#32 reduces_S512x1024_S512 (.inl rfl) rfl (ix1 s)
      = ∑ e : Fin 1024, x (ix2 s e) * x (ix2 s e) :=
  Cert.KeepdimsSum.rowSum_apply (mulf x x) reduces_S512x1024_S512 (.inl rfl) rfl s

/-- The products' table: row `p` of the part against row `s` of the batch, contracted over the 1024 features. -/
theorem products_apply (y : FVec Ideal S200x1024 .bf16) (x : FVec Ideal S512x1024 .bf16) (p : Fin 200) (s : Fin 512) :
    matmul dot_S200x1024_S512x1024_S200x512_1_1_0_0_n_n none y x (constant S200x512 .f32 0x00000000#32) (ix2 p s)
      = ∑ e : Fin 1024, y (ix2 p e) * x (ix2 s e) := by
  refine (Ideal.matmul_constant_zero_apply dot_S200x1024_S512x1024_S200x512_1_1_0_0_n_n none y x (ix2 p s)).trans ?_
  rw [← Equiv.sum_comp (contrEquiv1 dot_S200x1024_S512x1024_S200x512_1_1_0_0_n_n 1024 rfl rfl).symm]
  refine Finset.sum_congr rfl fun e _ => ?_
  have he := contrEquiv1_symm_val dot_S200x1024_S512x1024_S200x512_1_1_0_0_n_n 1024 rfl rfl e
  have el : dot_S200x1024_S512x1024_S200x512_1_1_0_0_n_n.lhsIdx (ix2 p s) ((contrEquiv1 dot_S200x1024_S512x1024_S200x512_1_1_0_0_n_n 1024 rfl rfl).symm e) = ix2 p e :=
    funext fun a => Fin.ext (by
      match a with
      | ⟨0, _⟩ => rfl
      | ⟨1, _⟩ => exact (dot_S200x1024_S512x1024_S200x512_1_1_0_0_n_n.lhsIdx_val_of_single rfl _ _).trans he)
  have er : dot_S200x1024_S512x1024_S200x512_1_1_0_0_n_n.rhsIdx (ix2 p s) ((contrEquiv1 dot_S200x1024_S512x1024_S200x512_1_1_0_0_n_n 1024 rfl rfl).symm e) = ix2 s e :=
    funext fun a => Fin.ext (by
      match a with
      | ⟨0, _⟩ => rfl
      | ⟨1, _⟩ => exact (dot_S200x1024_S512x1024_S200x512_1_1_0_0_n_n.rhsIdx_val_of_single rfl _ _).trans he)
  rw [el, er]

/-! ## The table -/

section Table

variable {F : FTy → Type} [FloatOps F]

/-- The [200, 512] table of one part's distances, from the batch's rows in the matrix unit's format `xb`, their sums
    of squares `x2`, and the part's slice `pk`: the body's operations, in the body's order. -/
def partDist (xb : FVec F S512x1024 .bf16) (x2 : FVec F S512 .f32) (pk : Vec F S200x1x1024 .f32) : FVec F S200x512 .f32 :=
  have y : FVec F S200x1024 .f32 := shapeCast S200x1024 pk shapeCasts_S200x1x1024_S200x1024
  sqrt (maximumf (subf
      (addf (broadcastTo S200x512 (shapeCast S200x1 (multiReduction .add [1] S200 (mulf y y) 0x00000000#32 reduces_S200x1024_S200 (.inl rfl) rfl)
          shapeCasts_S200_S200x1) broadcasts_S200x1_S200x512)
        (broadcastTo S200x512 (shapeCast S1x512 x2 shapeCasts_S512_S1x512) broadcasts_S1x512_S200x512))
      (mulf (broadcast S200x512 (Scalar.ofBits .f32 0x40000000#32))
        (matmul dot_S200x1024_S512x1024_S200x512_1_1_0_0_n_n none (truncf .bf16 y bitsLt_bf16_f32) xb (constant S200x512 .f32 0x00000000#32))))
    (broadcast S200x512 (Scalar.ofBits .f32 0x00000000#32)))

/-- Its row minima over the positions, from +∞. -/
def partMin (xb : FVec F S512x1024 .bf16) (x2 : FVec F S512 .f32) (pk : Vec F S200x1x1024 .f32) : FVec F S200 .f32 :=
  multiReduction .minimumf [1] S200 (partDist xb x2 pk) 0x7F800000#32 reduces_S200x512_S200 (.inl rfl) rfl

end Table

/-- The table at (p, s): sqrt (max ((‖y[p]‖² + ‖x[s]‖²) − 2 · ⟨y[p], x[s]⟩) 0), the norms and the product as finite sums
    over the features. -/
theorem partDist_apply (xb : FVec Ideal S512x1024 .bf16) (x2 : FVec Ideal S512 .f32) (pk : Vec Ideal S200x1x1024 .f32)
    (p : Fin 200) (s : Fin 512) :
    partDist xb x2 pk (ix2 p s)
      = Ideal.sqrt (max (((∑ e : Fin 1024, pk (ix3 p (0 : Fin 1) e) * pk (ix3 p (0 : Fin 1) e)) + x2 (ix1 s))
          - Ideal.ofBits .f32 0x40000000#32 * ∑ e : Fin 1024, pk (ix3 p (0 : Fin 1) e) * xb (ix2 s e))
        (Ideal.ofBits .f32 0x00000000#32)) := by
  refine congrArg Ideal.sqrt (congrArg₂ max (congrArg₂ (· - ·) (congrArg₂ (· + ·) ?_ ?_)
    (congrArg (Ideal.ofBits .f32 0x40000000#32 * ·) ?_)) rfl)
  · exact (protoNorms_apply _ p s).trans (Finset.sum_congr rfl fun e _ => by rw [sliceRow_apply])
  · exact embNorms_apply x2 p s
  · exact (products_apply _ xb p s).trans
      (Finset.sum_congr rfl fun e _ => congrArg (· * xb (ix2 s e)) (sliceRow_apply pk p e))

/-- The row minima at `p`: the fold of `min` from +∞ over the 512 positions of the table's row. -/
theorem partMin_apply (xb : FVec Ideal S512x1024 .bf16) (x2 : FVec Ideal S512 .f32) (pk : Vec Ideal S200x1x1024 .f32)
    (p : Fin 200) :
    partMin xb x2 pk (ix1 p)
      = (Finset.univ : Finset (Fin 512)).fold min (Ideal.ofBits .f32 0x7F800000#32) (fun s => partDist xb x2 pk (ix2 p s)) := by
  refine (Idealize.ShloMosaic.MinReduce.multiReduction_minimumf_single (partDist xb x2 pk) 0x7F800000#32
    reduces_S200x512_S200 (.inl rfl) rfl (ix1 p)).trans ?_
  refine congrArg (Finset.fold min (Ideal.ofBits .f32 0x7F800000#32) · Finset.univ) (funext fun s => ?_)
  refine congrArg (partDist xb x2 pk) (funext fun c => Fin.ext ?_)
  match c with
  | ⟨0, _⟩ => rfl
  | ⟨1, _⟩ => rfl

end Cert.KernelIdeal.PartDistances

end
-- ==== Proof.BlockTables.lean ====
/-
  What the kernel body leaves in its two output blocks.

  At one grid point the body holds a batch's embedding block `x0` ([1, 512, 1024]) and the whole prototype array `x1`
  ([200, 10, 1024]). For each of the ten parts `k` it loads the slice `x1[·, k, ·]`, forms that part's [200, 512]
  table of distances, stores it into the distance block at `[0, ·, k, ·]` and its row minima into the minimum block at
  `[0, ·, k]`. The ten stores into each block tile it, so the block ends as ONE function of its index: at
  `(0, p, k, s)` the distance between prototype part `(p, k)` and embedding row `s`; at `(0, p, k)` the smallest of those
  over the 512 rows.
-/
import proofs.«119728_j33139967656189_2_alg».proof.Proof.Gen.KernelIdeal.Frame
import proofs.«119728_j33139967656189_2_alg».proof.Proof.PartDistances

noncomputable section

namespace Cert.KernelIdeal.BlockTables

open Cert.KernelIdeal Cert.KernelIdeal.Gen Cert.KernelIdeal.PartDistances
open Idealize.ShloMosaic Idealize.ShloMosaic.ValueIdx

/-! ## Every store's value is one part's table, or its row minima, recast to the store's shape

The body's ten repetitions are cut into named values at different places, but each stored value unfolds to the same
operations of the batch's rows, their sums of squares, and the part's slice. -/

section Stores

variable {F : FTy → Type} [FloatOps F]

theorem distStore0 (v0 : Vec F S1x512x1024 .f32) (v5 : Vec F S200x1x1024 .f32) :
    k0_pay5 v0 v5 = shapeCast S1x200x1x512 (partDist (k0_pay2 v0) (k0_pay3 v0) v5) shapeCasts_S200x512_S1x200x1x512 := rfl
theorem distStore1 (v2 : FVec F S512x1024 .bf16) (v4 : FVec F S512 .f32) (pk : Vec F S200x1x1024 .f32) :
    k0_pay11 v2 v4 (k0_pay8 pk) (k0_pay9 pk) = shapeCast S1x200x1x512 (partDist v2 v4 pk) shapeCasts_S200x512_S1x200x1x512 := rfl
theorem distStore2 (v2 : FVec F S512x1024 .bf16) (v4 : FVec F S512 .f32) (pk : Vec F S200x1x1024 .f32) :
    k0_pay14 (k0_pay13 v2 v4 pk) = shapeCast S1x200x1x512 (partDist v2 v4 pk) shapeCasts_S200x512_S1x200x1x512 := rfl
theorem distStore3 (v2 : FVec F S512x1024 .bf16) (v4 : FVec F S512 .f32) (pk : Vec F S200x1x1024 .f32) :
    k0_pay17 v2 v4 pk = shapeCast S1x200x1x512 (partDist v2 v4 pk) shapeCasts_S200x512_S1x200x1x512 := rfl
theorem distStore4 (v2 : FVec F S512x1024 .bf16) (v4 : FVec F S512 .f32) (pk : Vec F S200x1x1024 .f32) :
    k0_pay22 v2 v4 (k0_pay19 pk) (k0_pay20 pk) = shapeCast S1x200x1x512 (partDist v2 v4 pk) shapeCasts_S200x512_S1x200x1x512 := rfl
theorem distStore5 (v2 : FVec F S512x1024 .bf16) (v4 : FVec F S512 .f32) (pk : Vec F S200x1x1024 .f32) :
    k0_pay25 (k0_pay24 v2 v4 pk) = shapeCast S1x200x1x512 (partDist v2 v4 pk) shapeCasts_S200x512_S1x200x1x512 := rfl
theorem distStore6 (v2 : FVec F S512x1024 .bf16) (v4 : FVec F S512 .f32) (pk : Vec F S200x1x1024 .f32) :
    k0_pay28 v2 v4 pk = shapeCast S1x200x1x512 (partDist v2 v4 pk) shapeCasts_S200x512_S1x200x1x512 := rfl
theorem distStore7 (v2 : FVec F S512x1024 .bf16) (v4 : FVec F S512 .f32) (pk : Vec F S200x1x1024 .f32) :
    k0_pay31 v2 v4 pk = shapeCast S1x200x1x512 (partDist v2 v4 pk) shapeCasts_S200x512_S1x200x1x512 := rfl
theorem distStore8 (v2 : FVec F S512x1024 .bf16) (v4 : FVec F S512 .f32) (pk : Vec F S200x1x1024 .f32) :
    k0_pay36 (k0_pay33 v2 v4 pk) (k0_pay34 (F := F)) = shapeCast S1x200x1x512 (partDist v2 v4 pk) shapeCasts_S200x512_S1x200x1x512 := rfl
theorem distStore9 (v2 : FVec F S512x1024 .bf16) (v4 : FVec F S512 .f32) (pk : Vec F S200x1x1024 .f32) :
    k0_pay39 v2 v4 pk = shapeCast S1x200x1x512 (partDist v2 v4 pk) shapeCasts_S200x512_S1x200x1x512 := rfl
theorem minStore0 (v0 : Vec F S1x512x1024 .f32) (v5 : Vec F S200x1x1024 .f32) :
    k0_pay6 v0 v5 = shapeCast S1x200x1 (partMin (k0_pay2 v0) (k0_pay3 v0) v5) shapeCasts_S200_S1x200x1 := rfl
theorem minStore1 (v2 : FVec F S512x1024 .bf16) (v4 : FVec F S512 .f32) (pk : Vec F S200x1x1024 .f32) :
    k0_pay12 v2 v4 (k0_pay8 pk) (k0_pay9 pk) = shapeCast S1x200x1 (partMin v2 v4 pk) shapeCasts_S200_S1x200x1 := rfl
theorem minStore2 (v2 : FVec F S512x1024 .bf16) (v4 : FVec F S512 .f32) (pk : Vec F S200x1x1024 .f32) :
    k0_pay15 (k0_pay13 v2 v4 pk) = shapeCast S1x200x1 (partMin v2 v4 pk) shapeCasts_S200_S1x200x1 := rfl
theorem minStore3 (v2 : FVec F S512x1024 .bf16) (v4 : FVec F S512 .f32) (pk : Vec F S200x1x1024 .f32) :
    k0_pay18 v2 v4 pk = shapeCast S1x200x1 (partMin v2 v4 pk) shapeCasts_S200_S1x200x1 := rfl
theorem minStore4 (v2 : FVec F S512x1024 .bf16) (v4 : FVec F S512 .f32) (pk : Vec F S200x1x1024 .f32) :
    k0_pay23 v2 v4 (k0_pay19 pk) (k0_pay20 pk) = shapeCast S1x200x1 (partMin v2 v4 pk) shapeCasts_S200_S1x200x1 := rfl
theorem minStore5 (v2 : FVec F S512x1024 .bf16) (v4 : FVec F S512 .f32) (pk : Vec F S200x1x1024 .f32) :
    k0_pay26 (k0_pay24 v2 v4 pk) = shapeCast S1x200x1 (partMin v2 v4 pk) shapeCasts_S200_S1x200x1 := rfl
theorem minStore6 (v2 : FVec F S512x1024 .bf16) (v4 : FVec F S512 .f32) (pk : Vec F S200x1x1024 .f32) :
    k0_pay29 v2 v4 pk = shapeCast S1x200x1 (partMin v2 v4 pk) shapeCasts_S200_S1x200x1 := rfl
theorem minStore7 (v2 : FVec F S512x1024 .bf16) (v4 : FVec F S512 .f32) (pk : Vec F S200x1x1024 .f32) :
    k0_pay32 v2 v4 pk = shapeCast S1x200x1 (partMin v2 v4 pk) shapeCasts_S200_S1x200x1 := rfl
theorem minStore8 (v2 : FVec F S512x1024 .bf16) (v4 : FVec F S512 .f32) (pk : Vec F S200x1x1024 .f32) :
    k0_pay37 (k0_pay33 v2 v4 pk) (k0_pay34 (F := F)) = shapeCast S1x200x1 (partMin v2 v4 pk) shapeCasts_S200_S1x200x1 := rfl
theorem minStore9 (v2 : FVec F S512x1024 .bf16) (v4 : FVec F S512 .f32) (pk : Vec F S200x1x1024 .f32) :
    k0_pay40 v2 v4 pk = shapeCast S1x200x1 (partMin v2 v4 pk) shapeCasts_S200_S1x200x1 := rfl

end Stores

/-! ## The blocks as functions of their index -/

section AtIdeal

/-- The distance between prototype part `(p, k)` of `x1` and row `s` of the embedding block `x0`:
    sqrt (max ((‖y‖² + ‖x‖²) − 2 · ⟨y, x⟩) 0), the body's order of the two norms. -/
def blockDist (x0 : Vec Ideal S1x512x1024 .f32) (x1 : Vec Ideal S200x10x1024 .f32) (p : Fin 200) (k : Fin 10) (s : Fin 512) : EReal :=
  Ideal.sqrt (max (((∑ e : Fin 1024, x1 (ix3 p k e) * x1 (ix3 p k e))
        + ∑ e : Fin 1024, x0 (ix3 (0 : Fin 1) s e) * x0 (ix3 (0 : Fin 1) s e))
      - Ideal.ofBits .f32 0x40000000#32 * ∑ e : Fin 1024, x1 (ix3 p k e) * x0 (ix3 (0 : Fin 1) s e))
    (Ideal.ofBits .f32 0x00000000#32))

/-- The smallest of those over the block's 512 rows, from +∞. -/
def blockMin (x0 : Vec Ideal S1x512x1024 .f32) (x1 : Vec Ideal S200x10x1024 .f32) (p : Fin 200) (k : Fin 10) : EReal :=
  (Finset.univ : Finset (Fin 512)).fold min (Ideal.ofBits .f32 0x7F800000#32) (fun s => blockDist x0 x1 p k s)

/-- The distance block, indexed (0, p, k, s). -/
def distBlock (x0 : Vec Ideal S1x512x1024 .f32) (x1 : Vec Ideal S200x10x1024 .f32) : S1x200x10x512.Idx → EReal := fun y =>
  blockDist x0 x1 ⟨(y 1).val, (y 1).isLt⟩ ⟨(y 2).val, (y 2).isLt⟩ ⟨(y 3).val, (y 3).isLt⟩

/-- The minimum block, indexed (0, p, k). -/
def minBlock (x0 : Vec Ideal S1x512x1024 .f32) (x1 : Vec Ideal S200x10x1024 .f32) : S1x200x10.Idx → EReal := fun y =>
  blockMin x0 x1 ⟨(y 1).val, (y 1).isLt⟩ ⟨(y 2).val, (y 2).isLt⟩

theorem blockDist_congr (x0 : Vec Ideal S1x512x1024 .f32) (x1 : Vec Ideal S200x10x1024 .f32) {p p' : Fin 200} {k k' : Fin 10}
    {s s' : Fin 512} (hp : p.val = p'.val) (hk : k.val = k'.val) (hs : s.val = s'.val) :
    blockDist x0 x1 p k s = blockDist x0 x1 p' k' s' := by
  obtain rfl := Fin.ext hp; obtain rfl := Fin.ext hk; obtain rfl := Fin.ext hs; rfl

theorem blockMin_congr (x0 : Vec Ideal S1x512x1024 .f32) (x1 : Vec Ideal S200x10x1024 .f32) {p p' : Fin 200} {k k' : Fin 10}
    (hp : p.val = p'.val) (hk : k.val = k'.val) : blockMin x0 x1 p k = blockMin x0 x1 p' k' := by
  obtain rfl := Fin.ext hp; obtain rfl := Fin.ext hk; rfl

theorem zero3 : (![0, 0, 0] : Fin 3 → Nat) = fun _ => 0 := funext fun a => by fin_cases a <;> rfl

/-- The load of the whole embedding block reads the block. -/
theorem wholeBlock (x0 : Vec Ideal S1x512x1024 .f32) : View.ld x0 r0_0 = x0 :=
  View.ld_unit_zero (S := S1x512x1024) zero3 _ x0

/-- The slice loaded for part `k`, at row `p` and feature `e`, is the prototype array at `(p, k, e)`. -/
theorem slice_apply (x1 : Vec Ideal S200x10x1024 .f32) (k : Nat) (hk : k < 10)
    (inb1 : ∀ a, (![0, k, 0] : Fin 3 → Nat) a + S200x1x1024.size a ≤ S200x10x1024.size a) (p : Fin 200) (e : Fin 1024) :
    View.ld x1 (Rect.unit (s := S200x10x1024) ![0, k, 0] S200x1x1024.size inb1) (ix3 p (0 : Fin 1) e) = x1 (ix3 p ⟨k, hk⟩ e) :=
  congrArg x1 (funext fun a => Fin.ext (by
    match a with
    | ⟨0, _⟩ => show 0 + 1 * p.val = p.val; omega
    | ⟨1, _⟩ => show k + 1 * 0 = k; omega
    | ⟨2, _⟩ => show 0 + 1 * e.val = e.val; omega))

/-- Part `k`'s table at (p, s) is the distance between prototype part (p, k) and row s. -/
theorem partTable_apply (x0 : Vec Ideal S1x512x1024 .f32) (x1 : Vec Ideal S200x10x1024 .f32) (k : Nat) (hk : k < 10)
    (inb1 : ∀ a, (![0, k, 0] : Fin 3 → Nat) a + S200x1x1024.size a ≤ S200x10x1024.size a) (p : Fin 200) (s : Fin 512) :
    partDist (k0_pay2 (View.ld x0 r0_0)) (k0_pay3 (View.ld x0 r0_0))
        (View.ld x1 (Rect.unit (s := S200x10x1024) ![0, k, 0] S200x1x1024.size inb1)) (ix2 p s)
      = blockDist x0 x1 p ⟨k, hk⟩ s := by
  rw [wholeBlock]
  refine (partDist_apply _ _ _ p s).trans ?_
  unfold blockDist
  refine congrArg Ideal.sqrt (congrArg₂ max (congrArg₂ (· - ·) (congrArg₂ (· + ·) ?_ ?_)
    (congrArg (Ideal.ofBits .f32 0x40000000#32 * ·) ?_)) rfl)
  · exact Finset.sum_congr rfl fun e _ => by rw [slice_apply x1 k hk inb1 p e]
  · exact (rowNorm_apply (k0_pay1 x0) s).trans (Finset.sum_congr rfl fun e _ => by
      rw [show k0_pay1 x0 (ix2 s e) = x0 (ix3 (0 : Fin 1) s e) from blockRow_apply x0 s e])
  · exact Finset.sum_congr rfl fun e _ => by
      rw [slice_apply x1 k hk inb1 p e]
      exact congrArg (x1 (ix3 p ⟨k, hk⟩ e) * ·) (blockRow_apply x0 s e)

/-- The value stored for part `k` into the distance block, at the store's own index, is the block's function at the
    index the store's rectangle places it. -/
theorem distPiece_apply (x0 : Vec Ideal S1x512x1024 .f32) (x1 : Vec Ideal S200x10x1024 .f32) (k : Nat) (hk : k < 10)
    (inb1 : ∀ a, (![0, k, 0] : Fin 3 → Nat) a + S200x1x1024.size a ≤ S200x10x1024.size a)
    (inb2 : ∀ a, (![0, 0, k, 0] : Fin 4 → Nat) a + S1x200x1x512.size a ≤ S1x200x10x512.size a) (x : S1x200x1x512.Idx) :
    shapeCast S1x200x1x512 (partDist (k0_pay2 (View.ld x0 r0_0)) (k0_pay3 (View.ld x0 r0_0))
        (View.ld x1 (Rect.unit (s := S200x10x1024) ![0, k, 0] S200x1x1024.size inb1))) shapeCasts_S200x512_S1x200x1x512 x
      = distBlock x0 x1 ((Rect.unit (s := S1x200x10x512) ![0, 0, k, 0] S1x200x1x512.size inb2).emb x) := by
  obtain ⟨u, p, v, s, rfl⟩ : ∃ (u : Fin 1) (p : Fin 200) (v : Fin 1) (s : Fin 512), x = ix4 u p v s :=
    ⟨x 0, x 1, x 2, x 3, eq_ix4 x⟩
  have hu : u.val = 0 := by omega
  have hv : v.val = 0 := by omega
  refine (shapeCast_apply _ _ (ix4 u p v s) (ix2 p s) (by
    rw [Shape.rowMajor_val_two, Shape.rowMajor_val_four]
    show p.val * 512 + s.val = ((u.val * 200 + p.val) * 1 + v.val) * 512 + s.val
    rw [hu, hv]; omega)).trans ?_
  refine (partTable_apply x0 x1 k hk inb1 p s).trans ?_
  exact blockDist_congr x0 x1 (by show p.val = 0 + 1 * p.val; omega) (by show k = k + 1 * v.val; omega)
    (by show s.val = 0 + 1 * s.val; omega)

/-- The same for the row minima stored into the minimum block. -/
theorem minPiece_apply (x0 : Vec Ideal S1x512x1024 .f32) (x1 : Vec Ideal S200x10x1024 .f32) (k : Nat) (hk : k < 10)
    (inb1 : ∀ a, (![0, k, 0] : Fin 3 → Nat) a + S200x1x1024.size a ≤ S200x10x1024.size a)
    (inb3 : ∀ a, (![0, 0, k] : Fin 3 → Nat) a + S1x200x1.size a ≤ S1x200x10.size a) (x : S1x200x1.Idx) :
    shapeCast S1x200x1 (partMin (k0_pay2 (View.ld x0 r0_0)) (k0_pay3 (View.ld x0 r0_0))
        (View.ld x1 (Rect.unit (s := S200x10x1024) ![0, k, 0] S200x1x1024.size inb1))) shapeCasts_S200_S1x200x1 x
      = minBlock x0 x1 ((Rect.unit (s := S1x200x10) ![0, 0, k] S1x200x1.size inb3).emb x) := by
  obtain ⟨u, p, v, rfl⟩ : ∃ (u : Fin 1) (p : Fin 200) (v : Fin 1), x = ix3 u p v := ⟨x 0, x 1, x 2, eq_ix3 x⟩
  have hu : u.val = 0 := by omega
  have hv : v.val = 0 := by omega
  refine (shapeCast_apply _ _ (ix3 u p v) (ix1 p) (by
    rw [Shape.rowMajor_val_one, Shape.rowMajor_val_three]
    show p.val = (u.val * 200 + p.val) * 1 + v.val
    rw [hu, hv]; omega)).trans ?_
  refine (partMin_apply _ _ _ p).trans ?_
  refine Eq.trans (congrArg (Finset.fold min (Ideal.ofBits .f32 0x7F800000#32) · Finset.univ)
    (funext fun s => partTable_apply x0 x1 k hk inb1 p s)) ?_
  exact blockMin_congr x0 x1 (by show p.val = 0 + 1 * p.val; omega) (by show k = k + 1 * v.val; omega)

/-! ## The two blocks after the body -/

/-- The distance block after the body is `distBlock` of the two input blocks. -/
theorem out_dist (x0 : Vec Ideal S1x512x1024 .f32) (x1 : Vec Ideal S200x10x1024 .f32) : out0_2 x0 x1 = distBlock x0 x1 := by
  funext y
  unfold out0_2
  refine View.canon_apply_of_pieces (Val := Elt Ideal) (e := .f32) (distBlock x0 x1) _ ?_ y (cover0_2 _ _ _ _ _ _ _ _ _ _ y)
  intro pc hpc
  simp only [List.mem_cons, List.mem_nil_iff, or_false] at hpc
  rcases hpc with rfl | rfl | rfl | rfl | rfl | rfl | rfl | rfl | rfl | rfl
  · intro x
    exact (congrFun (distStore9 _ _ _) x).trans
      (distPiece_apply x0 x1 9 (by decide) inb_S200x10x1024_S200x1x1024_0_9_0 inb_S1x200x10x512_S1x200x1x512_0_0_9_0 x)
  · intro x
    exact (congrFun (distStore8 _ _ _) x).trans
      (distPiece_apply x0 x1 8 (by decide) inb_S200x10x1024_S200x1x1024_0_8_0 inb_S1x200x10x512_S1x200x1x512_0_0_8_0 x)
  · intro x
    exact (congrFun (distStore7 _ _ _) x).trans
      (distPiece_apply x0 x1 7 (by decide) inb_S200x10x1024_S200x1x1024_0_7_0 inb_S1x200x10x512_S1x200x1x512_0_0_7_0 x)
  · intro x
    exact (congrFun (distStore6 _ _ _) x).trans
      (distPiece_apply x0 x1 6 (by decide) inb_S200x10x1024_S200x1x1024_0_6_0 inb_S1x200x10x512_S1x200x1x512_0_0_6_0 x)
  · intro x
    exact (congrFun (distStore5 _ _ _) x).trans
      (distPiece_apply x0 x1 5 (by decide) inb_S200x10x1024_S200x1x1024_0_5_0 inb_S1x200x10x512_S1x200x1x512_0_0_5_0 x)
  · intro x
    exact (congrFun (distStore4 _ _ _) x).trans
      (distPiece_apply x0 x1 4 (by decide) inb_S200x10x1024_S200x1x1024_0_4_0 inb_S1x200x10x512_S1x200x1x512_0_0_4_0 x)
  · intro x
    exact (congrFun (distStore3 _ _ _) x).trans
      (distPiece_apply x0 x1 3 (by decide) inb_S200x10x1024_S200x1x1024_0_3_0 inb_S1x200x10x512_S1x200x1x512_0_0_3_0 x)
  · intro x
    exact (congrFun (distStore2 _ _ _) x).trans
      (distPiece_apply x0 x1 2 (by decide) inb_S200x10x1024_S200x1x1024_0_2_0 inb_S1x200x10x512_S1x200x1x512_0_0_2_0 x)
  · intro x
    exact (congrFun (distStore1 _ _ _) x).trans
      (distPiece_apply x0 x1 1 (by decide) inb_S200x10x1024_S200x1x1024_0_1_0 inb_S1x200x10x512_S1x200x1x512_0_0_1_0 x)
  · intro x
    exact (congrFun (distStore0 _ _) x).trans
      (distPiece_apply x0 x1 0 (by decide) inb_S200x10x1024_S200x1x1024_0_0_0 inb_S1x200x10x512_S1x200x1x512_0_0_0_0 x)

/-! Each store into the minimum block, at the store's own index, is the block's function where the store's rectangle places it. -/

theorem minCase0 (x0 : Vec Ideal S1x512x1024 .f32) (x1 : Vec Ideal S200x10x1024 .f32) (x : S1x200x1.Idx) :
    k0_pay6 (View.ld x0 r0_0) (View.ld x1 r0_1) x = minBlock x0 x1 (r0_3.emb x) :=
  (congrFun (minStore0 (View.ld x0 r0_0) (View.ld x1 r0_1)) x).trans
    (minPiece_apply x0 x1 0 (by decide) inb_S200x10x1024_S200x1x1024_0_0_0 inb_S1x200x10_S1x200x1_0_0_0 x)

theorem minCase1 (x0 : Vec Ideal S1x512x1024 .f32) (x1 : Vec Ideal S200x10x1024 .f32) (x : S1x200x1.Idx) :
    k0_pay12 (k0_pay2 (View.ld x0 r0_0)) (k0_pay3 (View.ld x0 r0_0)) (k0_pay8 (View.ld x1 r0_4)) (k0_pay9 (View.ld x1 r0_4)) x = minBlock x0 x1 (r0_6.emb x) :=
  (congrFun (minStore1 (k0_pay2 (View.ld x0 r0_0)) (k0_pay3 (View.ld x0 r0_0)) (View.ld x1 r0_4)) x).trans
    (minPiece_apply x0 x1 1 (by decide) inb_S200x10x1024_S200x1x1024_0_1_0 inb_S1x200x10_S1x200x1_0_0_1 x)

theorem minCase2 (x0 : Vec Ideal S1x512x1024 .f32) (x1 : Vec Ideal S200x10x1024 .f32) (x : S1x200x1.Idx) :
    k0_pay15 (k0_pay13 (k0_pay2 (View.ld x0 r0_0)) (k0_pay3 (View.ld x0 r0_0)) (View.ld x1 r0_7)) x = minBlock x0 x1 (r0_9.emb x) :=
  (congrFun (minStore2 (k0_pay2 (View.ld x0 r0_0)) (k0_pay3 (View.ld x0 r0_0)) (View.ld x1 r0_7)) x).trans
    (minPiece_apply x0 x1 2 (by decide) inb_S200x10x1024_S200x1x1024_0_2_0 inb_S1x200x10_S1x200x1_0_0_2 x)

theorem minCase3 (x0 : Vec Ideal S1x512x1024 .f32) (x1 : Vec Ideal S200x10x1024 .f32) (x : S1x200x1.Idx) :
    k0_pay18 (k0_pay2 (View.ld x0 r0_0)) (k0_pay3 (View.ld x0 r0_0)) (View.ld x1 r0_10) x = minBlock x0 x1 (r0_12.emb x) :=
  (congrFun (minStore3 (k0_pay2 (View.ld x0 r0_0)) (k0_pay3 (View.ld x0 r0_0)) (View.ld x1 r0_10)) x).trans
    (minPiece_apply x0 x1 3 (by decide) inb_S200x10x1024_S200x1x1024_0_3_0 inb_S1x200x10_S1x200x1_0_0_3 x)

theorem minCase4 (x0 : Vec Ideal S1x512x1024 .f32) (x1 : Vec Ideal S200x10x1024 .f32) (x : S1x200x1.Idx) :
    k0_pay23 (k0_pay2 (View.ld x0 r0_0)) (k0_pay3 (View.ld x0 r0_0)) (k0_pay19 (View.ld x1 r0_13)) (k0_pay20 (View.ld x1 r0_13)) x = minBlock x0 x1 (r0_15.emb x) :=
  (congrFun (minStore4 (k0_pay2 (View.ld x0 r0_0)) (k0_pay3 (View.ld x0 r0_0)) (View.ld x1 r0_13)) x).trans
    (minPiece_apply x0 x1 4 (by decide) inb_S200x10x1024_S200x1x1024_0_4_0 inb_S1x200x10_S1x200x1_0_0_4 x)

theorem minCase5 (x0 : Vec Ideal S1x512x1024 .f32) (x1 : Vec Ideal S200x10x1024 .f32) (x : S1x200x1.Idx) :
    k0_pay26 (k0_pay24 (k0_pay2 (View.ld x0 r0_0)) (k0_pay3 (View.ld x0 r0_0)) (View.ld x1 r0_16)) x = minBlock x0 x1 (r0_18.emb x) :=
  (congrFun (minStore5 (k0_pay2 (View.ld x0 r0_0)) (k0_pay3 (View.ld x0 r0_0)) (View.ld x1 r0_16)) x).trans
    (minPiece_apply x0 x1 5 (by decide) inb_S200x10x1024_S200x1x1024_0_5_0 inb_S1x200x10_S1x200x1_0_0_5 x)

theorem minCase6 (x0 : Vec Ideal S1x512x1024 .f32) (x1 : Vec Ideal S200x10x1024 .f32) (x : S1x200x1.Idx) :
    k0_pay29 (k0_pay2 (View.ld x0 r0_0)) (k0_pay3 (View.ld x0 r0_0)) (View.ld x1 r0_19) x = minBlock x0 x1 (r0_21.emb x) :=
  (congrFun (minStore6 (k0_pay2 (View.ld x0 r0_0)) (k0_pay3 (View.ld x0 r0_0)) (View.ld x1 r0_19)) x).trans
    (minPiece_apply x0 x1 6 (by decide) inb_S200x10x1024_S200x1x1024_0_6_0 inb_S1x200x10_S1x200x1_0_0_6 x)

theorem minCase7 (x0 : Vec Ideal S1x512x1024 .f32) (x1 : Vec Ideal S200x10x1024 .f32) (x : S1x200x1.Idx) :
    k0_pay32 (k0_pay2 (View.ld x0 r0_0)) (k0_pay3 (View.ld x0 r0_0)) (View.ld x1 r0_22) x = minBlock x0 x1 (r0_24.emb x) :=
  (congrFun (minStore7 (k0_pay2 (View.ld x0 r0_0)) (k0_pay3 (View.ld x0 r0_0)) (View.ld x1 r0_22)) x).trans
    (minPiece_apply x0 x1 7 (by decide) inb_S200x10x1024_S200x1x1024_0_7_0 inb_S1x200x10_S1x200x1_0_0_7 x)

theorem minCase8 (x0 : Vec Ideal S1x512x1024 .f32) (x1 : Vec Ideal S200x10x1024 .f32) (x : S1x200x1.Idx) :
    k0_pay37 (k0_pay33 (k0_pay2 (View.ld x0 r0_0)) (k0_pay3 (View.ld x0 r0_0)) (View.ld x1 r0_25)) (k0_pay34 (F := Ideal)) x = minBlock x0 x1 (r0_27.emb x) :=
  (congrFun (minStore8 (k0_pay2 (View.ld x0 r0_0)) (k0_pay3 (View.ld x0 r0_0)) (View.ld x1 r0_25)) x).trans
    (minPiece_apply x0 x1 8 (by decide) inb_S200x10x1024_S200x1x1024_0_8_0 inb_S1x200x10_S1x200x1_0_0_8 x)

theorem minCase9 (x0 : Vec Ideal S1x512x1024 .f32) (x1 : Vec Ideal S200x10x1024 .f32) (x : S1x200x1.Idx) :
    k0_pay40 (k0_pay2 (View.ld x0 r0_0)) (k0_pay3 (View.ld x0 r0_0)) (View.ld x1 r0_28) x = minBlock x0 x1 (r0_30.emb x) :=
  (congrFun (minStore9 (k0_pay2 (View.ld x0 r0_0)) (k0_pay3 (View.ld x0 r0_0)) (View.ld x1 r0_28)) x).trans
    (minPiece_apply x0 x1 9 (by decide) inb_S200x10x1024_S200x1x1024_0_9_0 inb_S1x200x10_S1x200x1_0_0_9 x)

/-- The minimum block after the body is `minBlock` of the two input blocks. -/
theorem out_min (x0 : Vec Ideal S1x512x1024 .f32) (x1 : Vec Ideal S200x10x1024 .f32) : out0_3 x0 x1 = minBlock x0 x1 := by
  funext y
  unfold out0_3
  refine View.canon_apply_of_pieces (Val := Elt Ideal) (e := .f32) (minBlock x0 x1) _ ?_ y (cover0_3 _ _ _ _ _ _ _ _ _ _ y)
  intro pc hpc
  simp only [List.mem_cons, List.mem_nil_iff, or_false] at hpc
  rcases hpc with rfl | rfl | rfl | rfl | rfl | rfl | rfl | rfl | rfl | rfl
  · intro x
    dsimp only at x ⊢
    exact minCase9 x0 x1 x
  · intro x
    dsimp only at x ⊢
    exact minCase8 x0 x1 x
  · intro x
    dsimp only at x ⊢
    exact minCase7 x0 x1 x
  · intro x
    dsimp only at x ⊢
    exact minCase6 x0 x1 x
  · intro x
    dsimp only at x ⊢
    exact minCase5 x0 x1 x
  · intro x
    dsimp only at x ⊢
    exact minCase4 x0 x1 x
  · intro x
    dsimp only at x ⊢
    exact minCase3 x0 x1 x
  · intro x
    dsimp only at x ⊢
    exact minCase2 x0 x1 x
  · intro x
    dsimp only at x ⊢
    exact minCase1 x0 x1 x
  · intro x
    dsimp only at x ⊢
    exact minCase0 x0 x1 x

end AtIdeal

end Cert.KernelIdeal.BlockTables

end
-- ==== Proof.BlocksToArrays.lean ====
/-
  From the kernel's blocks to whole arrays.

  The kernel's grid has one point per batch. At point `t` the embedding window holds batch `t`'s [1, 512, 1024] block, the
  prototype window holds the whole prototype array, and the two output windows write back the [1, 200, 10, 512] block of
  distances and the [1, 200, 10] block of smallest distances of batch `t`. Block `t` of each output is therefore the
  restriction to batch `t` of ONE function of the two argument arrays — the table of distances (part-major:
  batch × prototype × part × position) and the table of smallest distances — and the 64 blocks tile the arrays, so each
  output array ends as that function.

  The body adds the two squared norms as ‖y‖² + ‖x‖² where the tables are written ‖x‖² + ‖y‖²: addition of extended reals
  commutes, and that is the only law used.
-/
import proofs.«119728_j33139967656189_2_alg».proof.Proof.Gen.KernelIdeal.Frame
import proofs.«119728_j33139967656189_2_alg».proof.Proof.DistanceTable
import proofs.«119728_j33139967656189_2_alg».proof.Proof.PartDistances
import proofs.«119728_j33139967656189_2_alg».proof.Proof.BlockTables
import Idealize.ShloMosaic.Lib.Pipeline.Value

noncomputable section

namespace Cert.KernelIdeal.Arrays

open Cert.KernelIdeal Cert.KernelIdeal.Gen Cert.KernelIdeal.BlockTables Cert.DistanceTable
open Idealize.ShloMosaic Idealize.ShloMosaic.TcCoe Idealize.ShloMosaic.ValueIdx Idealize.SL.Sem
open Idealize.ShloMosaic.Pipeline (Dat)

/-! ## A block's tables are the arrays' tables restricted to the block's batch -/

/-- If block `x0` holds batch `b`'s rows of `A0` and `x1` is `A1`, the block's distances are the table's at batch `b`. -/
theorem blockDist_eq (A0 : SEmb.Idx → EReal) (A1 : SProto.Idx → EReal) (x0 : Vec Ideal S1x512x1024 .f32)
    (x1 : Vec Ideal S200x10x1024 .f32) (b : Fin 64)
    (h0 : ∀ (s : Fin 512) (e : Fin 1024), x0 (ix3 (0 : Fin 1) s e) = A0 (ix3 b s e))
    (h1 : ∀ (p : Fin 200) (k : Fin 10) (e : Fin 1024), x1 (ix3 p k e) = A1 (ix3 p k e))
    (p : Fin 200) (k : Fin 10) (s : Fin 512) : blockDist x0 x1 p k s = DistanceTable.dist A0 A1 b p s k := by
  unfold blockDist DistanceTable.dist embSq protoSq cross
  simp only [h0, h1]
  rw [add_comm (∑ e : Fin 1024, A1 (ix3 p k e) * A1 (ix3 p k e))]

/-- And the block's smallest distances are the table's. -/
theorem blockMin_eq (A0 : SEmb.Idx → EReal) (A1 : SProto.Idx → EReal) (x0 : Vec Ideal S1x512x1024 .f32)
    (x1 : Vec Ideal S200x10x1024 .f32) (b : Fin 64)
    (h0 : ∀ (s : Fin 512) (e : Fin 1024), x0 (ix3 (0 : Fin 1) s e) = A0 (ix3 b s e))
    (h1 : ∀ (p : Fin 200) (k : Fin 10) (e : Fin 1024), x1 (ix3 p k e) = A1 (ix3 p k e))
    (p : Fin 200) (k : Fin 10) : blockMin x0 x1 p k = minDist A0 A1 b p k := by
  unfold blockMin minDist
  exact congrArg (Finset.fold min (Ideal.ofBits .f32 0x7F800000#32) · Finset.univ)
    (funext fun s => blockDist_eq A0 A1 x0 x1 b h0 h1 p k s)

theorem dist_congr (A0 : SEmb.Idx → EReal) (A1 : SProto.Idx → EReal) {b b' : Fin 64} {p p' : Fin 200} {s s' : Fin 512}
    {k k' : Fin 10} (hb : b.val = b'.val) (hp : p.val = p'.val) (hs : s.val = s'.val) (hk : k.val = k'.val) :
    DistanceTable.dist A0 A1 b p s k = DistanceTable.dist A0 A1 b' p' s' k' := by
  obtain rfl := Fin.ext hb; obtain rfl := Fin.ext hp; obtain rfl := Fin.ext hs; obtain rfl := Fin.ext hk; rfl

theorem minDist_congr (A0 : SEmb.Idx → EReal) (A1 : SProto.Idx → EReal) {b b' : Fin 64} {p p' : Fin 200}
    {k k' : Fin 10} (hb : b.val = b'.val) (hp : p.val = p'.val) (hk : k.val = k'.val) :
    minDist A0 A1 b p k = minDist A0 A1 b' p' k' := by
  obtain rfl := Fin.ext hb; obtain rfl := Fin.ext hp; obtain rfl := Fin.ext hk; rfl

/-! ## The windows' blocks at a grid point -/

variable (m : (ℓ : Loc nD τ sig) → Buf (Elt Ideal) ℓ)

/-- The index maps over the grid: the embedding window and both outputs move with the batch, the prototype window stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 3) = t.val ∧ win0_3.index t (1 : Fin 3) = 0 ∧ win0_3.index t (2 : Fin 3) = 0 :=
  (by decide +kernel : ∀ t : Fin grid0.N, _)

/-- The embedding window's block at point `t` is batch `t` of the embedding array. -/
theorem embBlock_apply (c : Dev nD) (t : Fin cfg0.N) (ht : t.val < 64) (s : Fin 512) (e : Fin 1024) :
    iblk m c 0 t (ix3 (0 : Fin 1) s e) = V m c main_arg0 (ix3 (⟨t.val, ht⟩ : Fin 64) s e) := by
  obtain ⟨e0, e1, e2, -⟩ := idx_facts t
  show V m c main_arg0 (((cfg0.win 0).blk t).view.emb (ix3 (0 : Fin 1) s e)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * e.val = e.val; omega

/-- The prototype window's block at every point is the prototype array. -/
theorem protoBlock_apply (c : Dev nD) (t : Fin cfg0.N) (p : Fin 200) (k : Fin 10) (e : Fin 1024) :
    iblk m c 1 t (ix3 p k e) = V m c main_arg1 (ix3 p k e) := by
  obtain ⟨-, -, -, e0, e1, e2, -⟩ := idx_facts t
  show V m c main_arg1 (((cfg0.win 1).blk t).view.emb (ix3 p k e)) = _
  refine congrArg (V m c main_arg1) (funext fun a => Fin.ext ?_)
  match a with
  | ⟨0, _⟩ => show win0_1.index t (0 : Fin 3) * 200 + 1 * p.val = p.val; omega
  | ⟨1, _⟩ => show win0_1.index t (1 : Fin 3) * 10 + 1 * k.val = k.val; omega
  | ⟨2, _⟩ => show win0_1.index t (2 : Fin 3) * 1024 + 1 * e.val = e.val; omega

/-! ## What each point writes back -/

/-- Point `t` writes back block `t` of the part-major table of distances. -/
theorem flushed_dist (c : Dev nD) (t : Fin cfg0.N) :
    (dats m 0 c).flushed 2 t
      = ((cfg0.win 2).blk t).view.read (Elt Ideal) (distArrT (V m c main_arg0) (V m c main_arg1)) := by
  have ht : t.val < 64 := lt_of_lt_of_eq t.isLt N_0
  show (cfg0.win 2).cut (grid0.coords t) ((dats m 0 c).after 2 t) = _
  rw [after0_2, out_dist]
  obtain ⟨-, -, -, -, -, -, e0, e1, e2, e3, -⟩ := idx_facts t
  funext j
  obtain ⟨u, p, k, s, rfl⟩ : ∃ (u : Fin 1) (p : Fin 200) (k : Fin 10) (s : Fin 512), j = ix4 u p k s :=
    ⟨j 0, j 1, j 2, j 3, eq_ix4 j⟩
  have hu : u.val = 0 := by omega
  show distBlock (iblk m c 0 t) (iblk m c 1 t) (ix4 u p k s)
    = distArrT (V m c main_arg0) (V m c main_arg1) (((cfg0.win 2).blk t).view.emb (ix4 u p k s))
  refine (blockDist_eq (V m c main_arg0) (V m c main_arg1) (iblk m c 0 t) (iblk m c 1 t) ⟨t.val, ht⟩
    (embBlock_apply m c t ht) (protoBlock_apply m c t) p k s).trans ?_
  exact dist_congr _ _
    (by show t.val = win0_2.index t (0 : Fin 4) * 1 + 1 * u.val; omega)
    (by show p.val = win0_2.index t (1 : Fin 4) * 200 + 1 * p.val; omega)
    (by show s.val = win0_2.index t (3 : Fin 4) * 512 + 1 * s.val; omega)
    (by show k.val = win0_2.index t (2 : Fin 4) * 10 + 1 * k.val; omega)

/-- Point `t` writes back block `t` of the table of smallest distances. -/
theorem flushed_min (c : Dev nD) (t : Fin cfg0.N) :
    (dats m 0 c).flushed 3 t
      = ((cfg0.win 3).blk t).view.read (Elt Ideal) (minArr (V m c main_arg0) (V m c main_arg1)) := by
  have ht : t.val < 64 := lt_of_lt_of_eq t.isLt N_0
  show (cfg0.win 3).cut (grid0.coords t) ((dats m 0 c).after 3 t) = _
  rw [after0_3, out_min]
  obtain ⟨-, -, -, -, -, -, -, -, -, -, e0, e1, e2⟩ := idx_facts t
  funext j
  obtain ⟨u, p, k, rfl⟩ : ∃ (u : Fin 1) (p : Fin 200) (k : Fin 10), j = ix3 u p k := ⟨j 0, j 1, j 2, eq_ix3 j⟩
  have hu : u.val = 0 := by omega
  show minBlock (iblk m c 0 t) (iblk m c 1 t) (ix3 u p k)
    = minArr (V m c main_arg0) (V m c main_arg1) (((cfg0.win 3).blk t).view.emb (ix3 u p k))
  refine (blockMin_eq (V m c main_arg0) (V m c main_arg1) (iblk m c 0 t) (iblk m c 1 t) ⟨t.val, ht⟩
    (embBlock_apply m c t ht) (protoBlock_apply m c t) p k).trans ?_
  exact minDist_congr _ _
    (by show t.val = win0_3.index t (0 : Fin 3) * 1 + 1 * u.val; omega)
    (by show p.val = win0_3.index t (1 : Fin 3) * 200 + 1 * p.val; omega)
    (by show k.val = win0_3.index t (2 : Fin 3) * 10 + 1 * k.val; omega)

/-! ## The blocks tile the arrays -/

theorem mem_blk_dist (t : Fin cfg0.N) (i : S64x200x10x512.Idx) :
    i ∈ ((cfg0.win 2).blk t).view.set ↔ ∀ a : Fin 4, win0_2.index t a * S1x200x10x512.size a ≤ (i a).val
      ∧ (i a).val < win0_2.index t a * S1x200x10x512.size a + S1x200x10x512.size a := by
  show i ∈ ((View.whole main_v0_0).slice (win0_2.rect t)).set ↔ _
  rw [View.set_slice_whole, Rect.mem_set_unit]
  exact Iff.rfl

theorem mem_blk_min (t : Fin cfg0.N) (i : S64x200x10.Idx) :
    i ∈ ((cfg0.win 3).blk t).view.set ↔ ∀ a : Fin 3, win0_3.index t a * S1x200x10.size a ≤ (i a).val
      ∧ (i a).val < win0_3.index t a * S1x200x10.size a + S1x200x10.size a := by
  show i ∈ ((View.whole main_v0_1).slice (win0_3.rect t)).set ↔ _
  rw [View.set_slice_whole, Rect.mem_set_unit]
  exact Iff.rfl

/-- Every index of the distance array lies in the block of its batch. -/
theorem cover_dist (i : S64x200x10x512.Idx) :
    ∃ t : Fin cfg0.N, (cfg0.win 2).flush t = true ∧ i ∈ ((cfg0.win 2).blk t).view.set := by
  have h0 : (i 0).val < 64 := (i 0).isLt
  have h1 : (i 1).val < 200 := (i 1).isLt
  have h2 : (i 2).val < 10 := (i 2).isLt
  have h3 : (i 3).val < 512 := (i 3).isLt
  have hN : (i 0).val < cfg0.N := lt_of_lt_of_eq h0 N_0.symm
  obtain ⟨-, -, -, -, -, -, e0, e1, e2, e3, -⟩ := idx_facts ⟨(i 0).val, hN⟩
  refine ⟨⟨(i 0).val, hN⟩, flush0_2 _, ?_⟩
  rw [mem_blk_dist]
  intro a
  match a with
  | ⟨0, _⟩ => show win0_2.index ⟨(i 0).val, hN⟩ (0 : Fin 4) * 1 ≤ (i 0).val ∧ (i 0).val < win0_2.index ⟨(i 0).val, hN⟩ (0 : Fin 4) * 1 + 1; simp only [Fin.val_mk] at e0; omega
  | ⟨1, _⟩ => show win0_2.index ⟨(i 0).val, hN⟩ (1 : Fin 4) * 200 ≤ (i 1).val ∧ (i 1).val < win0_2.index ⟨(i 0).val, hN⟩ (1 : Fin 4) * 200 + 200; omega
  | ⟨2, _⟩ => show win0_2.index ⟨(i 0).val, hN⟩ (2 : Fin 4) * 10 ≤ (i 2).val ∧ (i 2).val < win0_2.index ⟨(i 0).val, hN⟩ (2 : Fin 4) * 10 + 10; omega
  | ⟨3, _⟩ => show win0_2.index ⟨(i 0).val, hN⟩ (3 : Fin 4) * 512 ≤ (i 3).val ∧ (i 3).val < win0_2.index ⟨(i 0).val, hN⟩ (3 : Fin 4) * 512 + 512; omega

/-- Every index of the minimum array lies in the block of its batch. -/
theorem cover_min (i : S64x200x10.Idx) :
    ∃ t : Fin cfg0.N, (cfg0.win 3).flush t = true ∧ i ∈ ((cfg0.win 3).blk t).view.set := by
  have h0 : (i 0).val < 64 := (i 0).isLt
  have h1 : (i 1).val < 200 := (i 1).isLt
  have h2 : (i 2).val < 10 := (i 2).isLt
  have hN : (i 0).val < cfg0.N := lt_of_lt_of_eq h0 N_0.symm
  obtain ⟨-, -, -, -, -, -, -, -, -, -, e0, e1, e2⟩ := idx_facts ⟨(i 0).val, hN⟩
  refine ⟨⟨(i 0).val, hN⟩, flush0_3 _, ?_⟩
  rw [mem_blk_min]
  intro a
  match a with
  | ⟨0, _⟩ => show win0_3.index ⟨(i 0).val, hN⟩ (0 : Fin 3) * 1 ≤ (i 0).val ∧ (i 0).val < win0_3.index ⟨(i 0).val, hN⟩ (0 : Fin 3) * 1 + 1; simp only [Fin.val_mk] at e0; omega
  | ⟨1, _⟩ => show win0_3.index ⟨(i 0).val, hN⟩ (1 : Fin 3) * 200 ≤ (i 1).val ∧ (i 1).val < win0_3.index ⟨(i 0).val, hN⟩ (1 : Fin 3) * 200 + 200; omega
  | ⟨2, _⟩ => show win0_3.index ⟨(i 0).val, hN⟩ (2 : Fin 3) * 10 ≤ (i 2).val ∧ (i 2).val < win0_3.index ⟨(i 0).val, hN⟩ (2 : Fin 3) * 10 + 10; omega

/-! ## The two output arrays after the run -/

/-- The distance array ends as the part-major table of distances of the launch's embedding and prototype arrays. -/
theorem final_dist (c : Dev nD) :
    (dats (F := Ideal) m 0 c).arrAt 2 cfg0.N
      = Cert.DistanceTable.distArrT (m ((c : Thread nD τ).loc main_arg0)) (m ((c : Thread nD τ).loc main_arg1)) :=
  (dats m 0 c).arrAt_eq_of_cover 2 (distArrT (V m c main_arg0) (V m c main_arg1)) (fun t _ => flushed_dist m c t) cover_dist

/-- The minimum array ends as the table of smallest distances. -/
theorem final_min (c : Dev nD) :
    (dats (F := Ideal) m 0 c).arrAt 3 cfg0.N
      = Cert.DistanceTable.minArr (m ((c : Thread nD τ).loc main_arg0)) (m ((c : Thread nD τ).loc main_arg1)) :=
  (dats m 0 c).arrAt_eq_of_cover 3 (minArr (V m c main_arg0) (V m c main_arg1)) (fun t _ => flushed_min m c t) cover_min

end Cert.KernelIdeal.Arrays

end
-- ==== Proof.KernelResults.lean ====
/-
  The kernel program's three results.

  After its one region the kernel program exchanges the last two axes of the distance array the region wrote,
  sums the array of smallest distances over the parts of each prototype, divides by the number of parts, and
  contracts the quotient with the exchanged class-weight array. Read at the region's final arrays (the table of
  distances laid out batch × prototype × part × position and the table of smallest distances), the first result
  is the distance table batch × prototype × position × part, and the other two are one fixed function, the
  same in both programs, of the table of smallest distances and of the class weights.
-/
import proofs.«119728_j33139967656189_2_alg».proof.Proof.Gen.KernelIdeal.Frame
import proofs.«119728_j33139967656189_2_alg».proof.Proof.BlocksToArrays
import proofs.«119728_j33139967656189_2_alg».proof.Proof.DistanceTable
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Results

open Cert.KernelIdeal Cert.KernelIdeal.Gen Idealize.ShloMosaic Idealize.ShloMosaic.TcCoe Idealize.SL.Sem
open Idealize.ShloMosaic.StableHlo Idealize.ShloMosaic.ValueIdx

/-! ## The exchange of the last two axes -/

/-- The distance table laid out batch × prototype × part × position, with its last two axes exchanged, is the table laid
    out batch × prototype × position × part: entry (b, p, s, k) of the exchange is entry (b, p, k, s) of the operand. -/
theorem transpose_distArrT (a0 : Cert.DistanceTable.SEmb.Idx → EReal) (a1 : Cert.DistanceTable.SProto.Idx → EReal) :
    transpose S64x200x512x10 [0, 1, 3, 2] (Cert.DistanceTable.distArrT a0 a1) transposes_S64x200x10x512_S64x200x512x10_0_1_3_2
      = Cert.DistanceTable.distArr a0 a1 := by
  funext i
  obtain ⟨b, p, s, k, rfl⟩ : ∃ (b : Fin 64) (p : Fin 200) (s : Fin 512) (k : Fin 10), i = ix4 b p s k :=
    ⟨i 0, i 1, i 2, i 3, eq_ix4 i⟩
  refine (transpose_apply [0, 1, 3, 2] (Cert.DistanceTable.distArrT a0 a1) transposes_S64x200x10x512_S64x200x512x10_0_1_3_2
    (ix4 b p s k) (ix4 b p k s) (fun c => match c with | ⟨0, _⟩ => rfl | ⟨1, _⟩ => rfl | ⟨2, _⟩ => rfl | ⟨3, _⟩ => rfl)).trans ?_
  rw [Cert.DistanceTable.distArrT_ix4, Cert.DistanceTable.distArr_ix4]

/-! ## The operations both programs end with -/

/-- The mean over the parts of a prototype: the sum over the last axis of an array batch × prototype × part, from 0,
    divided by the word for 10. -/
def classMean (mn : FVec Ideal S64x200x10 .f32) : FVec Ideal S64x200 .f32 :=
  Host.divf (F := Ideal) (Host.reduceAdd (F := Ideal) mn (constant (F := Ideal) S_ .f32 0x00000000#32) reducesTo_S64x200x10_S64x200_d2 h_S_)
    (broadcastInDim S64x200 ![] bcast_S_S64x200 (constant (F := Ideal) S_ .f32 0x41200000#32))

/-- The class scores: that mean contracted over the prototypes with the exchanged class-weight array. -/
def classScores (mn : FVec Ideal S64x200x10 .f32) (w : FVec Ideal S3x200 .f32) : FVec Ideal S64x3 .f32 :=
  Host.dotGeneral (F := Ideal) dot_S64x200_S200x3_S64x3_1_0_0_1_n_n none (classMean mn)
    (transpose S200x3 [1, 0] w transposes_S3x200_S200x3_1_0)

/-! ## The three results, from the region's final arrays -/

variable (m : (ℓ : Loc nD τ sig) → Buf (Elt Ideal) ℓ)

/-- The second result: the exchange of the region's distance array. -/
theorem tail_v1 (c : Dev nD) :
    Pipeline.afterTail₀ cfgs (dats (F := Ideal) m) 0 (V0 m) [hostOps1] c main_v1
      = Cert.DistanceTable.distArr (m ((c : Thread nD τ).loc main_arg0)) (m ((c : Thread nD τ).loc main_arg1)) := by
  unfold Pipeline.afterTail₀
  show StableHlo.after hostOps1 _ (Proc.devRef .tc main_v1) = _
  after_results
  exact (congrArg (fun x : FVec Ideal S64x200x10x512 .f32 =>
      transpose S64x200x512x10 [0, 1, 3, 2] x transposes_S64x200x10x512_S64x200x512x10_0_1_3_2)
    ((Pipeline.withArrays_arr spec0 launch0.win.arr_inj c _ _ 2).trans (Cert.KernelIdeal.Arrays.final_dist m c))).trans
    (transpose_distArrT _ _)

/-- The first result: the mean over the parts of the region's array of smallest distances. -/
theorem tail_v4 (c : Dev nD) :
    Pipeline.afterTail₀ cfgs (dats (F := Ideal) m) 0 (V0 m) [hostOps1] c main_v4
      = classMean (Cert.DistanceTable.minArr (m ((c : Thread nD τ).loc main_arg0)) (m ((c : Thread nD τ).loc main_arg1))) := by
  unfold Pipeline.afterTail₀
  show StableHlo.after hostOps1 _ (Proc.devRef .tc main_v4) = _
  after_results
  exact congrArg classMean
    ((Pipeline.withArrays_arr spec0 launch0.win.arr_inj c _ _ 3).trans (Cert.KernelIdeal.Arrays.final_min m c))

/-- The third result: the class scores of the region's array of smallest distances and the class weights. -/
theorem tail_v6 (c : Dev nD) :
    Pipeline.afterTail₀ cfgs (dats (F := Ideal) m) 0 (V0 m) [hostOps1] c main_v6
      = classScores (Cert.DistanceTable.minArr (m ((c : Thread nD τ).loc main_arg0)) (m ((c : Thread nD τ).loc main_arg1)))
          (m ((c : Thread nD τ).loc main_arg2)) := by
  unfold Pipeline.afterTail₀
  show StableHlo.after hostOps1 _ (Proc.devRef .tc main_v6) = _
  after_results
  exact congrArg₂ classScores
    ((Pipeline.withArrays_arr spec0 launch0.win.arr_inj c _ _ 3).trans (Cert.KernelIdeal.Arrays.final_min m c))
    ((Pipeline.withArrays_of_ne _ c (V0 m c) _ main_arg2
      (by exact (by decide : ∀ w, Pipeline.arrRef spec0 w ≠ main_arg2))).trans (V_main_arg2 m c))

/-! ## The kernel program's run, its three results named -/

/-- Every weakly fair execution of the kernel program terminates; its first result is the mean over the parts of the
    table of smallest distances, its second the distance table, its third the class scores of that table and the
    class weights, all of the launch contents of the arguments; and the arguments end as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v4)
        = classMean (Cert.DistanceTable.minArr (m ((c.tc : Thread nD τ).loc main_arg0)) (m ((c.tc : Thread nD τ).loc main_arg1)))
      ∧ r.2.mem ((c.tc : Thread nD τ).loc main_v1)
        = Cert.DistanceTable.distArr (m ((c.tc : Thread nD τ).loc main_arg0)) (m ((c.tc : Thread nD τ).loc main_arg1))
      ∧ r.2.mem ((c.tc : Thread nD τ).loc main_v6)
        = classScores (Cert.DistanceTable.minArr (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (tail_v4 m c),
      ((h c).2 main_v1 (Pipeline.mem_restRefs_of main_v1 (by decide) (by decide))).trans (tail_v1 m c),
      ((h c).2 main_v6 (Pipeline.mem_restRefs_of main_v6 (by decide) (by decide))).trans (tail_v6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Results

end
-- ==== Proof.Claims.lean ====
/-
  The five claims.

  The three frame claims are the generated frames (the two kernel programs') and the generated run of the host
  program read at its arguments. The idealized kernel program is the kernel program's own text, so nothing is
  owed for it. For the value claim: at the extended reals the kernel program's three results are the mean over
  the parts of the table of smallest distances, the distance table, and the class scores of that table and the
  class weights (the kernel program's run); the host program's three results are the same three functions of
  its own arguments, because its distances stage is the distance table, its minimum stage the table of smallest
  distances, and the operations after them are the very operations the kernel program ends with; and the two
  programs' arguments agree.
-/
import proofs.«119728_j33139967656189_2_alg».proof.Defs
import proofs.«119728_j33139967656189_2_alg».proof.Proof.Gen.Kernel.Frame
import proofs.«119728_j33139967656189_2_alg».proof.Proof.Gen.KernelIdeal.Frame
import proofs.«119728_j33139967656189_2_alg».proof.Proof.Gen.ReferenceIdeal.Run
import proofs.«119728_j33139967656189_2_alg».proof.Proof.Gen.ReferenceIdeal.Read
import proofs.«119728_j33139967656189_2_alg».proof.Proof.Gen.Pre_finite_inputs
import proofs.«119728_j33139967656189_2_alg».proof.Proof.DistanceTable
import proofs.«119728_j33139967656189_2_alg».proof.Proof.ReferenceTable
import proofs.«119728_j33139967656189_2_alg».proof.Proof.KernelResults

noncomputable section

open Idealize.ShloMosaic Idealize.ShloMosaic.TcCoe Idealize.SL.Sem

/-! ## The host program's last operations are the kernel program's -/

namespace Cert.ReferenceTable

open Cert.ReferenceIdeal Cert.ReferenceIdeal.Read Cert.KernelIdeal.Results

/-- The host program's first result is the mean over the parts of the table of smallest distances: its minimum stage is
    that table, and the sum over the parts and the division by the word for 10 are the same operations. -/
theorem mean_eq (x0 : (⟨S64x512x1024, .f32⟩ : BufTy).Contents (Elt Ideal)) (x1 : (⟨S200x10x1024, .f32⟩ : BufTy).Contents (Elt Ideal)) :
    val_main_v20 (F := Ideal) x0 x1 = classMean (Cert.DistanceTable.minArr x0 x1) := by
  rw [← min_eq]; rfl

/-- The host program's third result is the class scores of the table of smallest distances and the class weights. -/
theorem scores_eq (x0 : (⟨S64x512x1024, .f32⟩ : BufTy).Contents (Elt Ideal)) (x1 : (⟨S200x10x1024, .f32⟩ : BufTy).Contents (Elt Ideal))
    (x2 : (⟨S3x200, .f32⟩ : BufTy).Contents (Elt Ideal)) :
    val_main_v22 (F := Ideal) x0 x1 x2 = classScores (Cert.DistanceTable.minArr x0 x1) x2 := by
  rw [← min_eq]; rfl

end Cert.ReferenceTable

/-! ## The claims -/

namespace Cert.Proof.Claims

open Cert.KernelIdeal.Results

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel program is the kernel program's text read over the extended reals: no operation was rewritten. -/
theorem preserves : Cert.preserves_Kernel_KernelIdeal := trivial

/-- Over the extended reals, from arguments that agree, both programs run, and their results are equal one by one: the
    mean over the parts of the table of smallest distances, the distance table, and the class scores. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun r h c => ?_) (Cert.ReferenceIdeal.Value.run (F := Ideal) m' ρ')
  obtain ⟨h20, h16, h22, ha0, ha1, ha2⟩ := h c
  refine ⟨h20.trans ?_, h16.trans ?_, h22.trans ?_, ha0, ha1, ha2⟩
  · rw [Cert.ReferenceIdeal.Read.val_main_v20_eq, Cert.ReferenceTable.mean_eq, (hagree c).1, (hagree c).2.1]
  · rw [Cert.ReferenceIdeal.Read.val_main_v16_eq, Cert.ReferenceTable.dist_eq, (hagree c).1, (hagree c).2.1]
  · rw [Cert.ReferenceIdeal.Read.val_main_v22_eq, Cert.ReferenceTable.scores_eq, (hagree c).1, (hagree c).2.1, (hagree c).2.2]

end Cert.Proof.Claims

end
-- ==== Proof.lean ====
/-
  The kernel and the reference compute the same three results over the extended reals.

  Both programs take embeddings `emb[b, s, ·]` (64 batches of 512 positions, 1024 features), prototypes `proto[p, k, ·]`
  (200 prototypes of 10 parts) and class weights `w[c, p]`. Both return (i) for every batch and prototype the mean, over
  the ten parts, of the smallest distance from the part to a position of the batch; (ii) the table of all distances
  sqrt (max (‖x‖² + ‖y‖² − 2⟨y, x⟩) 0), batch × prototype × position × part; (iii) the product of (i) with the
  transposed class weights.

  The reference forms the whole table at once and takes minima along the position axis. The kernel walks the batches:
  for one batch and each part it forms the [prototype, position] slice of the table by a matrix product, writes it into a
  part-major array and its row minima into a second array; the axes of the first are exchanged afterwards, and the mean
  and the class scores are computed from the second exactly as the reference computes them from its minima. Read over
  the extended reals the two tables agree entry by entry (the kernel adds the squared norms in the other order; addition
  commutes), hence so do their minima, and the common tail is the same function of equal arguments.

  `DistanceTable` states the tables; `ReferenceTable` reads the reference's stages as them; `PartDistances`,
  `BlockTables` and `BlocksToArrays` read the kernel's blocks and arrays as them; `KernelResults` carries them through
  the operations after the kernel; `Claims` assembles the five claims.
-/
import proofs.«119728_j33139967656189_2_alg».proof.Defs
import proofs.«119728_j33139967656189_2_alg».proof.Proof.Gen.Kernel
import proofs.«119728_j33139967656189_2_alg».proof.Proof.Gen.Kernel.Skeleton
import proofs.«119728_j33139967656189_2_alg».proof.Proof.Gen.Kernel.Launch
import proofs.«119728_j33139967656189_2_alg».proof.Proof.Gen.Kernel.Points
import proofs.«119728_j33139967656189_2_alg».proof.Proof.Gen.Kernel.Frame
import proofs.«119728_j33139967656189_2_alg».proof.Proof.Gen.KernelIdeal
import proofs.«119728_j33139967656189_2_alg».proof.Proof.Gen.KernelIdeal.Skeleton
import proofs.«119728_j33139967656189_2_alg».proof.Proof.Gen.KernelIdeal.Launch
import proofs.«119728_j33139967656189_2_alg».proof.Proof.Gen.KernelIdeal.Points
import proofs.«119728_j33139967656189_2_alg».proof.Proof.Gen.KernelIdeal.Frame
import proofs.«119728_j33139967656189_2_alg».proof.Proof.Gen.ReferenceIdeal
import proofs.«119728_j33139967656189_2_alg».proof.Proof.Gen.ReferenceIdeal.Run
import proofs.«119728_j33139967656189_2_alg».proof.Proof.Gen.ReferenceIdeal.Read
import proofs.«119728_j33139967656189_2_alg».proof.Proof.Gen.Pre_finite_inputs
import proofs.«119728_j33139967656189_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
